-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512x128 : Shape := ⟨4, ![4, 512, 512, 128]⟩
abbrev S4x512x512 : Shape := ⟨3, ![4, 512, 512]⟩
abbrev S128x2 : Shape := ⟨2, ![128, 2]⟩
abbrev S2 : Shape := ⟨1, ![2]⟩
abbrev S_ : Shape := ⟨0, ![]⟩

class Facts : Prop where
  bcast_S_S4x512x512x128 : S_.BroadcastsInDim S4x512x512x128 (![] : Fin 0 → Fin S4x512x512x128.rank)
  reducesTo_S4x512x512x128_S_d0_1_2_3 : S4x512x512x128.ReducesTo [0, 1, 2, 3] S_
  h_S_ : 0 < S_.numel
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S4x512x512x128 .f32) (main_arg1 : IVec S4x512x512 32) (main_arg2 : FVec F S128x2 .f32) (main_arg3 : FVec F S2 .f32) : IVec S_ 1 :=
  let main_v0 : FVec F S4x512x512x128 .f32 := Host.absf main_arg0
  let main_cst : FVec F S_ .f32 := constant S_ .f32 0x7F800000#32
  let main_v1 : FVec F S4x512x512x128 .f32 := broadcastInDim S4x512x512x128 ![] bcast_S_S4x512x512x128 main_cst
  let main_v2 : IVec S4x512x512x128 1 := cmpf .olt main_v0 main_v1
  let main_c : IVec S_ 1 := constantI S_ 1 1#1
  let main_v3 : IVec S_ 1 := (fun x v => Host.reduce IntOp.andi x v reducesTo_S4x512x512x128_S_d0_1_2_3 h_S_) main_v2 main_c
  let main_v4 : FVec F S128x2 .f32 := Host.absf main_arg2
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S4x512x512x128 : Shape := ⟨4, ![4, 512, 512, 128]⟩
abbrev S4x512x512 : Shape := ⟨3, ![4, 512, 512]⟩
abbrev S128x2 : Shape := ⟨2, ![128, 2]⟩
abbrev S2 : Shape := ⟨1, ![2]⟩
abbrev S1x64x512x128 : Shape := ⟨4, ![1, 64, 512, 128]⟩
abbrev S1x64x512 : Shape := ⟨3, ![1, 64, 512]⟩
abbrev S64x512x128 : Shape := ⟨3, ![64, 512, 128]⟩
abbrev S128x1 : Shape := ⟨2, ![128, 1]⟩
abbrev S128 : Shape := ⟨1, ![128]⟩
abbrev S1 : Shape := ⟨1, ![1]⟩
abbrev S1x1x128 : Shape := ⟨3, ![1, 1, 128]⟩
abbrev S64x512 : Shape := ⟨2, ![64, 512]⟩
abbrev S1x256x256 : Shape := ⟨3, ![1, 256, 256]⟩
abbrev S256x256 : Shape := ⟨2, ![256, 256]⟩
abbrev S4x512x512x1 : Shape := ⟨4, ![4, 512, 512, 1]⟩
abbrev S4x512x512x2 : Shape := ⟨4, ![4, 512, 512, 2]⟩

abbrev nBuf : Space → Nat
  | .hbm => 11
  | .vmem => 22
  | .smem => 0
  | _ => 0

abbrev bufTy : (tb : Table) → Fin (tcTables nBuf tb) → BufTy
  | .hbm, ⟨0, _⟩ => ⟨S4x512x512x128, .f32⟩
  | .hbm, ⟨1, _⟩ => ⟨S4x512x512, .i32⟩
  | .hbm, ⟨2, _⟩ => ⟨S128x2, .f32⟩
  | .hbm, ⟨3, _⟩ => ⟨S2, .f32⟩
  | .hbm, ⟨4, _⟩ => ⟨S4x512x512, .f32⟩
  | .hbm, ⟨5, _⟩ => ⟨S4x512x512, .f32⟩
  | .hbm, ⟨6, _⟩ => ⟨S4x512x512, .f32⟩
  | .hbm, ⟨7, _⟩ => ⟨S4x512x512, .f32⟩
  | .hbm, ⟨8, _⟩ => ⟨S4x512x512x1, .f32⟩
  | .hbm, ⟨9, _⟩ => ⟨S4x512x512x1, .f32⟩
  | .hbm, ⟨10, _⟩ => ⟨S4x512x512x2, .f32⟩
  | .local _ .vmem, ⟨0, _⟩ => ⟨S1x64x512x128, .f32⟩
  | .local _ .vmem, ⟨1, _⟩ => ⟨S1x64x512x128, .f32⟩
  | .local _ .vmem, ⟨2, _⟩ => ⟨S128x2, .f32⟩
  | .local _ .vmem, ⟨3, _⟩ => ⟨S2, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .i32⟩
  | .local _ .vmem, ⟨17, _⟩ => ⟨S1x256x256, .i32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S4x512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x256x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

class Facts₀ : Prop where
  inb_S1x64x512x128_S1x64x512x128_0_0_0_0 : ∀ a, (![0, 0, 0, 0] : Fin 4 → Nat) a + S1x64x512x128.size a ≤ S1x64x512x128.size a
  h_S1x64x512x128 : 0 < S1x64x512x128.numel
  shapeCasts_S1x64x512x128_S64x512x128 : S1x64x512x128.ShapeCasts S64x512x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  slices_S128x2_o0_0_S128x1 : S128x2.Slices ![0, 0] S128x1
  shapeCasts_S128x1_S128 : S128x1.ShapeCasts S128
  slices_S128x2_o0_1_S128x1 : S128x2.Slices ![0, 1] S128x1
  slices_S2_o0_S1 : S2.Slices ![0] S1
  inpos_S1_p0 : ∀ a, (![0] : Fin 1 → Nat) a < S1.size a
  slices_S2_o1_S1 : S2.Slices ![1] S1
  shapeCasts_S128_S1x1x128 : S128.ShapeCasts S1x1x128
  broadcasts_S1x1x128_S64x512x128 : S1x1x128.Broadcasts S64x512x128
  reduces_S64x512x128_S64x512 : S64x512x128.Reduces [2] S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  transposes_S256x256_p1_0_S256x256 : S256x256.Transposes [1, 0] S256x256
  shapeCasts_S256x256_S1x256x256 : S256x256.ShapeCasts S1x256x256
  bcast_S4x512x512_S4x512x512x1_0_1_2 : S4x512x512.BroadcastsInDim S4x512x512x1 (![0, 1, 2] : Fin 3 → Fin S4x512x512x1.rank)
  concatenates_S4x512x512x1_S4x512x512x1_S4x512x512x2_d3 : Shape.Concatenates [S4x512x512x1, S4x512x512x1] S4x512x512x2 3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512x128.size a ≤ S4x512x512x128.size a
  hwx0_0 : ∀ i : grid0.Coords, EltTy.bits .f32 = 32 ∨ (Rect.block (s := S4x512x512x128) S1x64x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S4x512x512.size a
  hwx0_3 : ∀ i : grid0.Coords, EltTy.bits .f32 = 32 ∨ (Rect.block (s := S4x512x512) S1x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S4x512x512.size a
  hwx0_4 : ∀ i : grid0.Coords, EltTy.bits .f32 = 32 ∨ (Rect.block (s := S4x512x512) S1x64x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S4x512x512.size a
  hwx1_0 : ∀ i : grid1.Coords, EltTy.bits .f32 = 32 ∨ (Rect.block (s := S4x512x512) S1x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S4x512x512.size a
  hwx1_1 : ∀ i : grid1.Coords, EltTy.bits .f32 = 32 ∨ (Rect.block (s := S4x512x512) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x256.size a ≤ S4x512x512.size a
  hwx1_2 : ∀ i : grid1.Coords, EltTy.bits .f32 = 32 ∨ (Rect.block (s := S4x512x512) S1x256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S4x512x512.size a
  hwx1_3 : ∀ i : grid1.Coords, EltTy.bits .f32 = 32 ∨ (Rect.block (s := S4x512x512) S1x256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S4x512x512.size a
  hwx1_4 : ∀ i : grid1.Coords, EltTy.bits .i32 = 32 ∨ (Rect.block (s := S4x512x512) S1x256x256.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x256.size a ≤ S4x512x512.size a
  hwx1_5 : ∀ i : grid1.Coords, EltTy.bits .f32 = 32 ∨ (Rect.block (s := S4x512x512) S1x256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x256.size a ≤ S4x512x512.size a
  hwx1_6 : ∀ i : grid1.Coords, EltTy.bits .f32 = 32 ∨ (Rect.block (s := S4x512x512) S1x256x256.size (cc1_transform_6 i) (hinb1_6 i)).WholeWords (EltTy.packing .f32)

variable [Facts₀]

abbrev win0_0 : Pipeline.Window sig grid0 :=
  Pipeline.Window.ofSpec (Memref.whole main_arg0) S1x64x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S1x256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S1x256x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S1x256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x512x512x128 : Shape := ⟨4, ![4, 512, 512, 128]⟩
abbrev S4x512x512 : Shape := ⟨3, ![4, 512, 512]⟩
abbrev S128x2 : Shape := ⟨2, ![128, 2]⟩
abbrev S2 : Shape := ⟨1, ![2]⟩
abbrev S_ : Shape := ⟨0, ![]⟩
abbrev S4x512x512x2 : Shape := ⟨4, ![4, 512, 512, 2]⟩
abbrev S1x1x1x2 : Shape := ⟨4, ![1, 1, 1, 2]⟩
abbrev S4x512x512x1 : Shape := ⟨4, ![4, 512, 512, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x512x512x128, .f32⟩
  | .hbm, ⟨1, _⟩ => ⟨S4x512x512, .i32⟩
  | .hbm, ⟨2, _⟩ => ⟨S128x2, .f32⟩
  | .hbm, ⟨3, _⟩ => ⟨S2, .f32⟩
  | .hbm, ⟨4, _⟩ => ⟨S_, .f32⟩
  | .hbm, ⟨5, _⟩ => ⟨S4x512x512x128, .f32⟩
  | .hbm, ⟨6, _⟩ => ⟨S4x512x512x128, .f32⟩
  | .hbm, ⟨7, _⟩ => ⟨S4x512x512x128, .f32⟩
  | .hbm, ⟨8, _⟩ => ⟨S4x512x512x128, .f32⟩
  | .hbm, ⟨9, _⟩ => ⟨S_, .f32⟩
  | .hbm, ⟨10, _⟩ => ⟨S4x512x512x128, .f32⟩
  | .hbm, ⟨11, _⟩ => ⟨S4x512x512x128, .f32⟩
  | .hbm, ⟨12, _⟩ => ⟨S4x512x512x2, .f32⟩
  | .hbm, ⟨13, _⟩ => ⟨S1x1x1x2, .f32⟩
  | .hbm, ⟨14, _⟩ => ⟨S4x512x512x2, .f32⟩
  | .hbm, ⟨15, _⟩ => ⟨S4x512x512x2, .f32⟩
  | .hbm, ⟨16, _⟩ => ⟨S_, .i32⟩
  | .hbm, ⟨17, _⟩ => ⟨S4x512x512, .i32⟩
  | .hbm, ⟨18, _⟩ => ⟨S4x512x512, .i1⟩
  | .hbm, ⟨19, _⟩ => ⟨S4x512x512x1, .i1⟩
  | .hbm, ⟨20, _⟩ => ⟨S_, .f32⟩
  | .hbm, ⟨21, _⟩ => ⟨S4x512x512x2, .i1⟩
  | .hbm, ⟨22, _⟩ => ⟨S4x512x512x2, .f32⟩
  | .hbm, ⟨23, _⟩ => ⟨S4x512x512x2, .f32⟩
  | _, _ => ⟨S4x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S4x512x512x128 : S_.BroadcastsInDim S4x512x512x128 (![] : Fin 0 → Fin S4x512x512x128.rank)
  transposes_S4x512x512x128_S4x512x512x128_0_2_1_3 : S4x512x512x128.Transposes [0, 2, 1, 3] S4x512x512x128
  bcast_S2_S1x1x1x2_3 : S2.BroadcastsInDim S1x1x1x2 (![3] : Fin 1 → Fin S1x1x1x2.rank)
  bcast_S1x1x1x2_S4x512x512x2_0_1_2_3 : S1x1x1x2.BroadcastsInDim S4x512x512x2 (![0, 1, 2, 3] : Fin 4 → Fin S4x512x512x2.rank)
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  bcast_S4x512x512x1_S4x512x512x2_0_1_2_3 : S4x512x512x1.BroadcastsInDim S4x512x512x2 (![0, 1, 2, 3] : Fin 4 → Fin S4x512x512x2.rank)
  bcast_S_S4x512x512x2 : S_.BroadcastsInDim S4x512x512x2 (![] : Fin 0 → Fin S4x512x512x2.rank)
  dot_S4x512x512x128_S128x2_S4x512x512x2_3_0_012_1_n_n_wf : DotDims.WF S4x512x512x128 S128x2 S4x512x512x2 [3] [0] [0, 1, 2] [1] [] []

variable [Facts₀]

def dot_S4x512x512x128_S128x2_S4x512x512x2_3_0_012_1_n_n : DotDims S4x512x512x128 S128x2 S4x512x512x2 where
  lhsContracting := [3]
  rhsContracting := [0]
  lhsNonContracting := [0, 1, 2]
  rhsNonContracting := [1]
  lhsBatch := []
  rhsBatch := []
  wf := dot_S4x512x512x128_S128x2_S4x512x512x2_3_0_012_1_n_n_wf

class Facts : Prop extends Facts₀ where

variable [Facts]
-- ==== Proof.BitsRegion0.lean ====
/-
  The first kernel region, at the buffer contents `V` it is entered from: for each grid point (b, i) it reads the
  block [b, 64·i .. 64·i+63, all, all] of the feature array, the whole weight matrix and the whole bias, and leaves
  in each of its two output blocks [b, 64·i .. 64·i+63, all] one stored value, a pure function of those three
  blocks (`planeA`, `planeB`: the rectified features times a weight column, summed over the channel axis, plus a
  bias entry). Stated here: what each staging buffer holds after the body, the body's triple, and the per-point
  obligation of the pipeline.
-/
import proofs.«141700_j13821204759244_2_alg».proof.Proof.Gen.Kernel.Launch
import proofs.«141700_j13821204759244_2_alg».proof.Proof.Gen.Kernel.Skeleton
import proofs.«141700_j13821204759244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S1x64x512x128 := Rect.unit (s := S1x64x512x128) ![0, 0, 0, 0] S1x64x512x128.size inb_S1x64x512x128_S1x64x512x128_0_0_0_0
abbrev rW : Rect S128x2 := Rect.unit (s := S128x2) ![0, 0] S128x2.size inb_S128x2_S128x2_0_0
abbrev rB : Rect S2 := Rect.unit (s := S2) ![0] S2.size inb_S2_S2_0
abbrev rP : Rect S1x64x512 := Rect.unit (s := S1x64x512) ![0, 0, 0] S1x64x512.size inb_S1x64x512_S1x64x512_0_0_0

/-- What the body leaves in the first output plane's buffer, from the three input blocks. -/
def planeA (x0 : Vec F S1x64x512x128 .f32) (x1 : Vec F S128x2 .f32) (x2 : Vec F S2 .f32) : Vec F S1x64x512 .f32 :=
  View.canon [⟨rP, k0_pay2 (View.ld x0 rX) (View.ld x1 rW) (View.ld x2 rB)⟩]
/-- What the body leaves in the second output plane's buffer. -/
def planeB (x0 : Vec F S1x64x512x128 .f32) (x1 : Vec F S128x2 .f32) (x2 : Vec F S2 .f32) : Vec F S1x64x512 .f32 :=
  View.canon [⟨rP, k0_pay3 (View.ld x0 rX) (View.ld x1 rW) (View.ld x2 rB)⟩]

/-- One store through the whole-buffer rectangle covers the buffer. -/
theorem coverP (p0 : Vec F S1x64x512 .f32) (y : S1x64x512.Idx) :
    ∃ pc ∈ ([⟨rP, p0⟩] : List (View.Piece (Elt F) S1x64x512 .f32)), y ∈ pc.1.set :=
  View.cover_of_tiled [⟨rP, p0⟩] S1x64x512.size (by rfl) y

set_option maxHeartbeats 1000000 in
/-- The body on whole staging memrefs, the inputs' at read contents `x0 x1 x2` and the outputs' at anything, runs to the
    continuation holding the inputs' as they were and the outputs' at `planeA`, `planeB` of the inputs'. -/
theorem sound_kernel0 (c : Dev nD) (E : Set ℕ) (i : grid0.Coords) (arg2 : Memref sig .tc .vmem S1x64x512x128 .f32) (harg2 : arg2.IsWhole) (arg3 : Memref sig .tc .vmem S128x2 .f32) (harg3 : arg3.IsWhole) (arg4 : Memref sig .tc .vmem S2 .f32) (harg4 : arg4.IsWhole) (arg5 : Memref sig .tc .vmem S1x64x512 .f32) (harg5 : arg5.IsWhole) (arg6 : Memref sig .tc .vmem S1x64x512 .f32) (harg6 : arg6.IsWhole)
    (x0 : Vec F S1x64x512x128 .f32) (x1 : Vec F S128x2 .f32) (x2 : Vec F S2 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (planeA x0 x1 x2) ∗ owns (c : Thread nD τ) arg6 fullShare (planeB x0 x1 x2)) -∗ K ⟨⟩))
      ⊢ wp frame (wpE (defs₀ (F := F)) Variants.none c none) E (cc0__relu_proj_kernel i arg2 harg2 arg3 harg3 arg4 harg4 arg5 harg5 arg6 harg6) K := by
  simp only [cc0__relu_proj_kernel_eq_skeleton]; unfold cc0__relu_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverP _)
  iexists _; isplitr
  swap; · iexact H4
  ipureintro
  try dsimp only
  exact View.read_writes_eq_canon _ _ _ (coverP _)

/-- The proof data of the first pipeline on core `c`: the arrays as the region finds them; after the body at point `t`
    each input's buffer at its block and each output's at its plane of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => planeA (iblk0 V c 0 t) (iblk0 V c 1 t) (iblk0 V c 2 t)
    | ⟨4, _⟩ => planeB (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = planeA (iblk0 V c 0 t) (iblk0 V c 1 t) (iblk0 V c 2 t) := by dsimp only [dat0]
theorem after0_4 (c : Dev nD) (t : Fin cfg0.N) : (dat0 V c).after 4 t = planeB (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.BitsRegion1.lean ====
/-
  The second kernel region, at the buffer contents `V` it is entered from: for each grid point (b, i, j) it reads the
  256×256 tiles (b, i, j) of the two planes the first region produced, the tiles (b, j, i) of the same two planes, and
  the tile (b, i, j) of the flag array, and leaves in each of its two output tiles (b, i, j) one stored value, a pure
  function of those blocks (`tileA`, `tileB`: the direct tile plus the transposed swapped tile, halved, kept where
  the flag is nonzero). Each plane is read through TWO windows; each of the two holds half of the array's share.
-/
import proofs.«141700_j13821204759244_2_alg».proof.Proof.Gen.Kernel.Launch
import proofs.«141700_j13821204759244_2_alg».proof.Proof.Gen.Kernel.Skeleton
import proofs.«141700_j13821204759244_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangle the body loads and stores through. -/
abbrev rT : Rect S1x256x256 := Rect.unit (s := S1x256x256) ![0, 0, 0] S1x256x256.size inb_S1x256x256_S1x256x256_0_0_0

/-- What the body leaves in the first output tile's buffer: from the first plane's direct and swapped tiles and the flags. -/
def tileA (x0 : Vec F S1x256x256 .f32) (x2 : Vec F S1x256x256 .f32) (x4 : Vec F S1x256x256 .i32) : Vec F S1x256x256 .f32 :=
  View.canon [⟨rT, k1_pay2 (View.ld x0 rT) (View.ld x2 rT) (View.ld x4 rT)⟩]
/-- What the body leaves in the second output tile's buffer: from the second plane's direct and swapped tiles and the flags. -/
def tileB (x1 : Vec F S1x256x256 .f32) (x3 : Vec F S1x256x256 .f32) (x4 : Vec F S1x256x256 .i32) : Vec F S1x256x256 .f32 :=
  View.canon [⟨rT, k1_pay3 (View.ld x1 rT) (View.ld x3 rT) (View.ld x4 rT)⟩]

/-- One store through the whole-buffer rectangle covers the buffer. -/
theorem coverT (p0 : Vec F S1x256x256 .f32) (y : S1x256x256.Idx) :
    ∃ pc ∈ ([⟨rT, p0⟩] : List (View.Piece (Elt F) S1x256x256 .f32)), y ∈ pc.1.set :=
  View.cover_of_tiled [⟨rT, p0⟩] S1x256x256.size (by rfl) y

set_option maxHeartbeats 1000000 in
/-- The body on whole staging memrefs, the inputs' at read contents and the outputs' at anything, runs to the
    continuation holding the inputs' as they were and the outputs' at `tileA`, `tileB` of the inputs'. -/
theorem sound_kernel1 (c : Dev nD) (E : Set ℕ) (i : grid1.Coords) (arg3 : Memref sig .tc .vmem S1x256x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .i32) (harg7 : arg7.IsWhole) (arg8 : Memref sig .tc .vmem S1x256x256 .f32) (harg8 : arg8.IsWhole) (arg9 : Memref sig .tc .vmem S1x256x256 .f32) (harg9 : arg9.IsWhole)
    (x0 : Vec F S1x256x256 .f32) (x1 : Vec F S1x256x256 .f32) (x2 : Vec F S1x256x256 .f32) (x3 : Vec F S1x256x256 .f32) (x4 : Vec F S1x256x256 .i32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (tileA x0 x2 x4) ∗ owns (c : Thread nD τ) arg9 fullShare (tileB x1 x3 x4)) -∗ K ⟨⟩))
      ⊢ wp frame (wpE (defs₀ (F := F)) Variants.none c none) E (cc1__symmetrize_mask_kernel i arg3 harg3 arg4 harg4 arg5 harg5 arg6 harg6 arg7 harg7 arg8 harg8 arg9 harg9) K := by
  simp only [cc1__symmetrize_mask_kernel_eq_skeleton]; unfold cc1__symmetrize_mask_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverT _)
  iexists _; isplitr
  swap; · iexact H6
  ipureintro
  try dsimp only
  exact View.read_writes_eq_canon _ _ _ (coverT _)

/-- The share of its array an input window holds: each plane is read by two windows, a half each; the flag array by one. -/
def share1 : Fin cfg1.W → PosShare TreeShare
  | ⟨0, _⟩ => fullShare.left
  | ⟨1, _⟩ => fullShare.left
  | ⟨2, _⟩ => fullShare.right
  | ⟨3, _⟩ => fullShare.right
  | _ => fullShare

/-- The proof data of the second pipeline on core `c`: the arrays as the region finds them; after the body at point `t`
    each input's buffer at its block and each output's at its tile of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => tileA (iblk1 V c 0 t) (iblk1 V c 2 t) (iblk1 V c 4 t)
    | ⟨6, _⟩ => tileB (iblk1 V c 1 t) (iblk1 V c 3 t) (iblk1 V c 4 t)
  Φ _ := Pipeline.ΦA spec1 c
  q := share1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = tileA (iblk1 V c 0 t) (iblk1 V c 2 t) (iblk1 V c 4 t) := by dsimp only [dat1]
theorem after1_6 (c : Dev nD) (t : Fin cfg1.N) : (dat1 V c).after 6 t = tileB (iblk1 V c 1 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.BitsShare1.lean ====
/-
  The second region reads each plane of the first region's result through two windows. The array behind a plane is
  one buffer, held whole when the region is entered: it is dealt to the two windows as two half shares, and the two
  halves are joined again when the region is left (an input array holds its entry contents throughout). Stated
  here: the core's unscoped buffers at a valuation split into the second pipeline's arrays at its entry contents and
  the rest, and the arrays at their final contents with the rest make the unscoped buffers at the valuation updated
  at the two output arrays.
-/
import proofs.«141700_j13821204759244_2_alg».proof.Proof.BitsRegion1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wv : Dev nD → Valuation τ sig (Elt F))

/-- A valuation of all device buffers read at the TensorCore's references. -/
abbrev Vof : (c : Dev nD) → (b : Ref sig .tc) → Buf (Elt F) ((c : Thread nD τ).loc b) := fun c b => Wv c b

/-- The buffer contents when the second region is left: the two output arrays at what the pipeline's write-backs leave,
    every other buffer as entered. -/
def leave1 (c : Dev nD) : Valuation τ sig (Elt F) :=
  Function.update (Function.update (Wv c) (Proc.devRef .tc main_v1_0) ((dat1 (Vof Wv) c).arrAt 5 cfg1.N))
    (Proc.devRef .tc main_v1_1) ((dat1 (Vof Wv) c).arrAt 6 cfg1.N)

theorem leave1_of (c : Dev nD) (b : Ref sig .tc) (h0 : b ≠ main_v1_0) (h1 : b ≠ main_v1_1) :
    leave1 Wv c (Proc.devRef .tc b) = Wv c (Proc.devRef .tc b) := by
  unfold leave1
  simp only [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
theorem leave1_A (c : Dev nD) : leave1 Wv c (Proc.devRef .tc main_v1_0) = (dat1 (Vof Wv) c).arrAt 5 cfg1.N := by
  unfold leave1
  rw [Function.update_of_ne (StableHlo.devRef_ne_of_ne (by decide) : (Proc.devRef .tc main_v1_0 : DevRef τ sig) ≠ Proc.devRef .tc main_v1_1), Function.update_self]
theorem leave1_B (c : Dev nD) : leave1 Wv c (Proc.devRef .tc main_v1_1) = (dat1 (Vof Wv) c).arrAt 6 cfg1.N := by
  unfold leave1
  rw [Function.update_self]

/-- The core's unscoped buffers are the buffers behind the second pipeline's arrays and the rest. -/
theorem ub_split1 (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) :=
  Pipeline.unscopedBufs_split₀ (cfgs := cfgs) (p := (1 : Fin 2)) winFacts₀1.arr_unscoped c V

/-- The five buffers behind the seven windows' arrays, one by one. -/
theorem arrBufs1_list (c : Dev nD) (V : (b : Ref sig .tc) → Buf (Elt F) ((c : Thread nD τ).loc b)) :
    (Pipeline.arrBufs spec1 c V : sProp 𝕄)
      = iprop((((c : Thread nD τ).loc main_v0_0) ↦{fullShare} V main_v0_0) ∗ (((c : Thread nD τ).loc main_v0_1) ↦{fullShare} V main_v0_1)
          ∗ (((c : Thread nD τ).loc main_arg1) ↦{fullShare} V main_arg1) ∗ (((c : Thread nD τ).loc main_v1_0) ↦{fullShare} V main_v1_0)
          ∗ (((c : Thread nD τ).loc main_v1_1) ↦{fullShare} V main_v1_1)) := by
  unfold Pipeline.arrBufs
  exact bigSep_eq_bigSepL_of_eq [main_v0_0, main_v0_1, main_arg1, main_v1_0, main_v1_1] (by decide) (by decide) _

/-- The seven windows' arrays, one by one, each at its share. -/
theorem arrays1_list (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_1) ↦{fullShare.left} G 1)
          ∗ (((c : Thread nD τ).loc main_v0_0) ↦{fullShare.right} G 2) ∗ (((c : Thread nD τ).loc main_v0_1) ↦{fullShare.right} G 3)
          ∗ (((c : Thread nD τ).loc main_arg1) ↦{fullShare} G 4) ∗ (((c : Thread nD τ).loc main_v1_0) ↦{fullShare} G 5)
          ∗ (((c : Thread nD τ).loc main_v1_1) ↦{fullShare} G 6)) := by
  unfold Dat.arrays
  refine (bigSep_congr (Ψ := fun w : Fin cfg1.W => (((c : Thread nD τ).loc (Pipeline.arrRef spec1 w)) ↦{(dat1 V c).share w} G w : sProp 𝕄))
    fun w _ => by rw [(arr_whole1 w).set_eq_univ]).trans ?_
  refine (bigSep_W1 _).trans ?_
  rfl

/-- ENTRY: the unscoped buffers at a valuation give the second pipeline's arrays at their entry contents — each plane's
    full share dealt as a left half to its direct window and a right half to its swapped window — and the rest. -/
theorem split1 (c : Dev nD) :
    (StableHlo.held (c : Thread nD τ) (Pipeline.ucRefs τ sig) (Wv c) : sProp 𝕄)
      ⊢ iprop((dat1 (Vof Wv) c).arrays ((dat1 (Vof Wv) c).arrAt · 0) ∗ Pipeline.unscopedRest spec1 c (Vof Wv c)) := by
  have e0 : (dat1 (Vof Wv) c).arrAt 0 0 = Vof Wv c main_v0_0 := A_eq1 (Vof Wv) c 0
  have e1 : (dat1 (Vof Wv) c).arrAt 1 0 = Vof Wv c main_v0_1 := A_eq1 (Vof Wv) c 1
  have e2 : (dat1 (Vof Wv) c).arrAt 2 0 = Vof Wv c main_v0_0 := A_eq1 (Vof Wv) c 2
  have e3 : (dat1 (Vof Wv) c).arrAt 3 0 = Vof Wv c main_v0_1 := A_eq1 (Vof Wv) c 3
  have e4 : (dat1 (Vof Wv) c).arrAt 4 0 = Vof Wv c main_arg1 := A_eq1 (Vof Wv) c 4
  have e5 : (dat1 (Vof Wv) c).arrAt 5 0 = Vof Wv c main_v1_0 := A_eq1 (Vof Wv) c 5
  have e6 : (dat1 (Vof Wv) c).arrAt 6 0 = Vof Wv c main_v1_1 := A_eq1 (Vof Wv) c 6
  rw [← Pipeline.unscopedBufs_held (Ix := Unit) (Name := ℕ) (U := UR sig nD τ) (Lvl := ℕ) c (Wv c), ub_split1, arrBufs1_list, arrays1_list]
  dsimp only
  rw [e0, e1, e2, e3, e4, e5, e6]
  iintro ⟨⟨H00, H01, Hf, H10, H11⟩, Hrest⟩
  have hsA : (((c : Thread nD τ).loc main_v0_0) ↦{fullShare} Vof Wv c main_v0_0 : sProp 𝕄)
      ⊢ iprop((((c : Thread nD τ).loc main_v0_0) ↦{fullShare.left} Vof Wv c main_v0_0) ∗ (((c : Thread nD τ).loc main_v0_0) ↦{fullShare.right} Vof Wv c main_v0_0)) :=
    (pointsTo_share (PosShare.mem_left_op_right fullShare)).1
  have hsB : (((c : Thread nD τ).loc main_v0_1) ↦{fullShare} Vof Wv c main_v0_1 : sProp 𝕄)
      ⊢ iprop((((c : Thread nD τ).loc main_v0_1) ↦{fullShare.left} Vof Wv c main_v0_1) ∗ (((c : Thread nD τ).loc main_v0_1) ↦{fullShare.right} Vof Wv c main_v0_1)) :=
    (pointsTo_share (PosShare.mem_left_op_right fullShare)).1
  ihave HA := hsA $$ H00
  icases HA with ⟨HAl, HAr⟩
  ihave HB := hsB $$ H01
  icases HB with ⟨HBl, HBr⟩
  isplitr [Hrest]
  · isplitl [HAl]; · iexact HAl
    isplitl [HBl]; · iexact HBl
    isplitl [HAr]; · iexact HAr
    isplitl [HBr]; · iexact HBr
    isplitl [Hf]; · iexact Hf
    isplitl [H10]; · iexact H10
    iexact H11
  iexact Hrest

/-- EXIT: the arrays at their final contents — an input array still at its entry contents, so the two halves of a plane
    join — and the rest make the unscoped buffers at the valuation updated at the two output arrays. -/
theorem join1 (c : Dev nD) :
    iprop((dat1 (Vof Wv) c).arrays ((dat1 (Vof Wv) c).arrAt · cfg1.N) ∗ Pipeline.unscopedRest spec1 c (Vof Wv c))
      ⊢ (StableHlo.held (c : Thread nD τ) (Pipeline.ucRefs τ sig) (leave1 Wv c) : sProp 𝕄) := by
  have e0 : (dat1 (Vof Wv) c).arrAt 0 cfg1.N = Vof Wv c main_v0_0 := ((dat1 (Vof Wv) c).arrAt_in 0 rfl _).trans (A_eq1 (Vof Wv) c 0)
  have e1 : (dat1 (Vof Wv) c).arrAt 1 cfg1.N = Vof Wv c main_v0_1 := ((dat1 (Vof Wv) c).arrAt_in 1 rfl _).trans (A_eq1 (Vof Wv) c 1)
  have e2 : (dat1 (Vof Wv) c).arrAt 2 cfg1.N = Vof Wv c main_v0_0 := ((dat1 (Vof Wv) c).arrAt_in 2 rfl _).trans (A_eq1 (Vof Wv) c 2)
  have e3 : (dat1 (Vof Wv) c).arrAt 3 cfg1.N = Vof Wv c main_v0_1 := ((dat1 (Vof Wv) c).arrAt_in 3 rfl _).trans (A_eq1 (Vof Wv) c 3)
  have e4 : (dat1 (Vof Wv) c).arrAt 4 cfg1.N = Vof Wv c main_arg1 := ((dat1 (Vof Wv) c).arrAt_in 4 rfl _).trans (A_eq1 (Vof Wv) c 4)
  rw [← Pipeline.unscopedBufs_held (Ix := Unit) (Name := ℕ) (U := UR sig nD τ) (Lvl := ℕ) c (leave1 Wv c), ub_split1, arrBufs1_list, arrays1_list,
    unscopedRest1_eq, unscopedRest1_eq]
  try dsimp only
  rw [e0, e1, e2, e3, e4, leave1_of Wv c main_v0_0 (by decide) (by decide), leave1_of Wv c main_v0_1 (by decide) (by decide),
    leave1_of Wv c main_arg1 (by decide) (by decide), leave1_of Wv c main_arg0 (by decide) (by decide), leave1_of Wv c main_arg2 (by decide) (by decide),
    leave1_of Wv c main_arg3 (by decide) (by decide), leave1_of Wv c main_v2 (by decide) (by decide), leave1_of Wv c main_v3 (by decide) (by decide),
    leave1_of Wv c main_v4 (by decide) (by decide), leave1_A, leave1_B]
  iintro ⟨⟨HAl, HBl, HAr, HBr, Hf, H10, H11⟩, Hrest⟩
  isplitr [Hrest]
  · isplitl [HAl HAr]
    · iapply (pointsTo_share (PosShare.mem_left_op_right fullShare)).2
      isplitl [HAl] <;> iassumption
    isplitl [HBl HBr]
    · iapply (pointsTo_share (PosShare.mem_left_op_right fullShare)).2
      isplitl [HBl] <;> iassumption
    isplitl [Hf]; · iexact Hf
    isplitl [H10]; · iexact H10
    iexact H11
  iexact Hrest

end Cert.Kernel.Frame

end
-- ==== Proof.BitsRun.lean ====
/-
  The whole program's run: two kernel regions, then three host operations that lay the two result planes side by side
  along a new last axis. The buffer contents at each boundary are a fold from the launch memory: the first region's two
  output arrays at what its write-backs leave, then the second region's, then the host operations' results. Every
  weakly fair execution terminates, and every unscoped buffer ends at the last valuation of that fold; in particular
  the four argument arrays end as launched.
-/
import proofs.«141700_j13821204759244_2_alg».proof.Proof.BitsRegion0
import proofs.«141700_j13821204759244_2_alg».proof.Proof.BitsShare1
import proofs.«141700_j13821204759244_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first region is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- When the first region is left: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- When the second region is left: its two output arrays at what the pipeline leaves, every other buffer as entered. -/
abbrev W2 (c : Dev nD) : Valuation τ sig (Elt F) := leave1 (W1 m ρ) c
/-- After the three host operations. -/
abbrev W3 : Dev nD → Valuation τ sig (Elt F) := fun c => StableHlo.after hostOps2 (W2 m ρ c)

/-! ### The arguments end as launched -/

theorem W3_of (c : Dev nD) (r : Ref sig .tc) (h : r ∉ hostOps2_W) : W3 m ρ c r = W2 m ρ c r :=
  StableHlo.after_of_writes_sub hostOps2 _ hostOps2_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := leave1_of (W1 m ρ) c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := leave1_of (W1 m ρ) c main_arg1 (by decide) (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of m ρ c main_arg2 (by decide)
    _ = W1 m ρ c (Proc.devRef .tc main_arg2) := leave1_of (W1 m ρ) c main_arg2 (by decide) (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of m ρ c main_arg3 (by decide)
    _ = W1 m ρ c (Proc.devRef .tc main_arg3) := leave1_of (W1 m ρ) c main_arg3 (by decide) (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`; each plane's
    array dealt to its two windows as two half shares at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit : (StableHlo.held (c : Thread nD τ) (Pipeline.ucRefs τ sig) (W1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V1 m ρ c)) := split1 (W1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V1 m ρ c))
        ⊢ (StableHlo.held (c : Thread nD τ) (Pipeline.ucRefs τ sig) (W2 m ρ c) : sProp 𝕄) := join1 (W1 m ρ) c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: every weakly fair execution of @main terminates, and every unscoped buffer ends at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.Kernel.Frame

end
-- ==== Proof.IdealRegion0.lean ====
/-
  The first kernel region, at the buffer contents `V` it is entered from: for each grid point (b, i) it reads the
  block [b, 64·i .. 64·i+63, all, all] of the feature array, the whole weight matrix and the whole bias, and leaves
  in each of its two output blocks [b, 64·i .. 64·i+63, all] one stored value, a pure function of those three
  blocks (`planeA`, `planeB`: the rectified features times a weight column, summed over the channel axis, plus a
  bias entry). Stated here: what each staging buffer holds after the body, the body's triple, and the per-point
  obligation of the pipeline.
-/
import proofs.«141700_j13821204759244_2_alg».proof.Proof.Gen.KernelIdeal.Launch
import proofs.«141700_j13821204759244_2_alg».proof.Proof.Gen.KernelIdeal.Skeleton
import proofs.«141700_j13821204759244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S1x64x512x128 := Rect.unit (s := S1x64x512x128) ![0, 0, 0, 0] S1x64x512x128.size inb_S1x64x512x128_S1x64x512x128_0_0_0_0
abbrev rW : Rect S128x2 := Rect.unit (s := S128x2) ![0, 0] S128x2.size inb_S128x2_S128x2_0_0
abbrev rB : Rect S2 := Rect.unit (s := S2) ![0] S2.size inb_S2_S2_0
abbrev rP : Rect S1x64x512 := Rect.unit (s := S1x64x512) ![0, 0, 0] S1x64x512.size inb_S1x64x512_S1x64x512_0_0_0

/-- What the body leaves in the first output plane's buffer, from the three input blocks. -/
def planeA (x0 : Vec F S1x64x512x128 .f32) (x1 : Vec F S128x2 .f32) (x2 : Vec F S2 .f32) : Vec F S1x64x512 .f32 :=
  View.canon [⟨rP, k0_pay2 (View.ld x0 rX) (View.ld x1 rW) (View.ld x2 rB)⟩]
/-- What the body leaves in the second output plane's buffer. -/
def planeB (x0 : Vec F S1x64x512x128 .f32) (x1 : Vec F S128x2 .f32) (x2 : Vec F S2 .f32) : Vec F S1x64x512 .f32 :=
  View.canon [⟨rP, k0_pay3 (View.ld x0 rX) (View.ld x1 rW) (View.ld x2 rB)⟩]

/-- One store through the whole-buffer rectangle covers the buffer. -/
theorem coverP (p0 : Vec F S1x64x512 .f32) (y : S1x64x512.Idx) :
    ∃ pc ∈ ([⟨rP, p0⟩] : List (View.Piece (Elt F) S1x64x512 .f32)), y ∈ pc.1.set :=
  View.cover_of_tiled [⟨rP, p0⟩] S1x64x512.size (by rfl) y

set_option maxHeartbeats 1000000 in
/-- The body on whole staging memrefs, the inputs' at read contents `x0 x1 x2` and the outputs' at anything, runs to the
    continuation holding the inputs' as they were and the outputs' at `planeA`, `planeB` of the inputs'. -/
theorem sound_kernel0 (c : Dev nD) (E : Set ℕ) (i : grid0.Coords) (arg2 : Memref sig .tc .vmem S1x64x512x128 .f32) (harg2 : arg2.IsWhole) (arg3 : Memref sig .tc .vmem S128x2 .f32) (harg3 : arg3.IsWhole) (arg4 : Memref sig .tc .vmem S2 .f32) (harg4 : arg4.IsWhole) (arg5 : Memref sig .tc .vmem S1x64x512 .f32) (harg5 : arg5.IsWhole) (arg6 : Memref sig .tc .vmem S1x64x512 .f32) (harg6 : arg6.IsWhole)
    (x0 : Vec F S1x64x512x128 .f32) (x1 : Vec F S128x2 .f32) (x2 : Vec F S2 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (planeA x0 x1 x2) ∗ owns (c : Thread nD τ) arg6 fullShare (planeB x0 x1 x2)) -∗ K ⟨⟩))
      ⊢ wp frame (wpE (defs₀ (F := F)) Variants.none c none) E (cc0__relu_proj_kernel i arg2 harg2 arg3 harg3 arg4 harg4 arg5 harg5 arg6 harg6) K := by
  simp only [cc0__relu_proj_kernel_eq_skeleton]; unfold cc0__relu_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverP _)
  iexists _; isplitr
  swap; · iexact H4
  ipureintro
  try dsimp only
  exact View.read_writes_eq_canon _ _ _ (coverP _)

/-- The proof data of the first pipeline on core `c`: the arrays as the region finds them; after the body at point `t`
    each input's buffer at its block and each output's at its plane of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => planeA (iblk0 V c 0 t) (iblk0 V c 1 t) (iblk0 V c 2 t)
    | ⟨4, _⟩ => planeB (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = planeA (iblk0 V c 0 t) (iblk0 V c 1 t) (iblk0 V c 2 t) := by dsimp only [dat0]
theorem after0_4 (c : Dev nD) (t : Fin cfg0.N) : (dat0 V c).after 4 t = planeB (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IdealRegion1.lean ====
/-
  The second kernel region, at the buffer contents `V` it is entered from: for each grid point (b, i, j) it reads the
  256×256 tiles (b, i, j) of the two planes the first region produced, the tiles (b, j, i) of the same two planes, and
  the tile (b, i, j) of the flag array, and leaves in each of its two output tiles (b, i, j) one stored value, a pure
  function of those blocks (`tileA`, `tileB`: the direct tile plus the transposed swapped tile, halved, kept where
  the flag is nonzero). Each plane is read through TWO windows; each of the two holds half of the array's share.
-/
import proofs.«141700_j13821204759244_2_alg».proof.Proof.Gen.KernelIdeal.Launch
import proofs.«141700_j13821204759244_2_alg».proof.Proof.Gen.KernelIdeal.Skeleton
import proofs.«141700_j13821204759244_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangle the body loads and stores through. -/
abbrev rT : Rect S1x256x256 := Rect.unit (s := S1x256x256) ![0, 0, 0] S1x256x256.size inb_S1x256x256_S1x256x256_0_0_0

/-- What the body leaves in the first output tile's buffer: from the first plane's direct and swapped tiles and the flags. -/
def tileA (x0 : Vec F S1x256x256 .f32) (x2 : Vec F S1x256x256 .f32) (x4 : Vec F S1x256x256 .i32) : Vec F S1x256x256 .f32 :=
  View.canon [⟨rT, k1_pay2 (View.ld x0 rT) (View.ld x2 rT) (View.ld x4 rT)⟩]
/-- What the body leaves in the second output tile's buffer: from the second plane's direct and swapped tiles and the flags. -/
def tileB (x1 : Vec F S1x256x256 .f32) (x3 : Vec F S1x256x256 .f32) (x4 : Vec F S1x256x256 .i32) : Vec F S1x256x256 .f32 :=
  View.canon [⟨rT, k1_pay3 (View.ld x1 rT) (View.ld x3 rT) (View.ld x4 rT)⟩]

/-- One store through the whole-buffer rectangle covers the buffer. -/
theorem coverT (p0 : Vec F S1x256x256 .f32) (y : S1x256x256.Idx) :
    ∃ pc ∈ ([⟨rT, p0⟩] : List (View.Piece (Elt F) S1x256x256 .f32)), y ∈ pc.1.set :=
  View.cover_of_tiled [⟨rT, p0⟩] S1x256x256.size (by rfl) y

set_option maxHeartbeats 1000000 in
/-- The body on whole staging memrefs, the inputs' at read contents and the outputs' at anything, runs to the
    continuation holding the inputs' as they were and the outputs' at `tileA`, `tileB` of the inputs'. -/
theorem sound_kernel1 (c : Dev nD) (E : Set ℕ) (i : grid1.Coords) (arg3 : Memref sig .tc .vmem S1x256x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .i32) (harg7 : arg7.IsWhole) (arg8 : Memref sig .tc .vmem S1x256x256 .f32) (harg8 : arg8.IsWhole) (arg9 : Memref sig .tc .vmem S1x256x256 .f32) (harg9 : arg9.IsWhole)
    (x0 : Vec F S1x256x256 .f32) (x1 : Vec F S1x256x256 .f32) (x2 : Vec F S1x256x256 .f32) (x3 : Vec F S1x256x256 .f32) (x4 : Vec F S1x256x256 .i32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (tileA x0 x2 x4) ∗ owns (c : Thread nD τ) arg9 fullShare (tileB x1 x3 x4)) -∗ K ⟨⟩))
      ⊢ wp frame (wpE (defs₀ (F := F)) Variants.none c none) E (cc1__symmetrize_mask_kernel i arg3 harg3 arg4 harg4 arg5 harg5 arg6 harg6 arg7 harg7 arg8 harg8 arg9 harg9) K := by
  simp only [cc1__symmetrize_mask_kernel_eq_skeleton]; unfold cc1__symmetrize_mask_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverT _)
  iexists _; isplitr
  swap; · iexact H6
  ipureintro
  try dsimp only
  exact View.read_writes_eq_canon _ _ _ (coverT _)

/-- The share of its array an input window holds: each plane is read by two windows, a half each; the flag array by one. -/
def share1 : Fin cfg1.W → PosShare TreeShare
  | ⟨0, _⟩ => fullShare.left
  | ⟨1, _⟩ => fullShare.left
  | ⟨2, _⟩ => fullShare.right
  | ⟨3, _⟩ => fullShare.right
  | _ => fullShare

/-- The proof data of the second pipeline on core `c`: the arrays as the region finds them; after the body at point `t`
    each input's buffer at its block and each output's at its tile of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => tileA (iblk1 V c 0 t) (iblk1 V c 2 t) (iblk1 V c 4 t)
    | ⟨6, _⟩ => tileB (iblk1 V c 1 t) (iblk1 V c 3 t) (iblk1 V c 4 t)
  Φ _ := Pipeline.ΦA spec1 c
  q := share1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = tileA (iblk1 V c 0 t) (iblk1 V c 2 t) (iblk1 V c 4 t) := by dsimp only [dat1]
theorem after1_6 (c : Dev nD) (t : Fin cfg1.N) : (dat1 V c).after 6 t = tileB (iblk1 V c 1 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.IdealShare1.lean ====
/-
  The second region reads each plane of the first region's result through two windows. The array behind a plane is
  one buffer, held whole when the region is entered: it is dealt to the two windows as two half shares, and the two
  halves are joined again when the region is left (an input array holds its entry contents throughout). Stated
  here: the core's unscoped buffers at a valuation split into the second pipeline's arrays at its entry contents and
  the rest, and the arrays at their final contents with the rest make the unscoped buffers at the valuation updated
  at the two output arrays.
-/
import proofs.«141700_j13821204759244_2_alg».proof.Proof.IdealRegion1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Wv : Dev nD → Valuation τ sig (Elt F))

/-- A valuation of all device buffers read at the TensorCore's references. -/
abbrev Vof : (c : Dev nD) → (b : Ref sig .tc) → Buf (Elt F) ((c : Thread nD τ).loc b) := fun c b => Wv c b

/-- The buffer contents when the second region is left: the two output arrays at what the pipeline's write-backs leave,
    every other buffer as entered. -/
def leave1 (c : Dev nD) : Valuation τ sig (Elt F) :=
  Function.update (Function.update (Wv c) (Proc.devRef .tc main_v1_0) ((dat1 (Vof Wv) c).arrAt 5 cfg1.N))
    (Proc.devRef .tc main_v1_1) ((dat1 (Vof Wv) c).arrAt 6 cfg1.N)

theorem leave1_of (c : Dev nD) (b : Ref sig .tc) (h0 : b ≠ main_v1_0) (h1 : b ≠ main_v1_1) :
    leave1 Wv c (Proc.devRef .tc b) = Wv c (Proc.devRef .tc b) := by
  unfold leave1
  simp only [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
theorem leave1_A (c : Dev nD) : leave1 Wv c (Proc.devRef .tc main_v1_0) = (dat1 (Vof Wv) c).arrAt 5 cfg1.N := by
  unfold leave1
  rw [Function.update_of_ne (StableHlo.devRef_ne_of_ne (by decide) : (Proc.devRef .tc main_v1_0 : DevRef τ sig) ≠ Proc.devRef .tc main_v1_1), Function.update_self]
theorem leave1_B (c : Dev nD) : leave1 Wv c (Proc.devRef .tc main_v1_1) = (dat1 (Vof Wv) c).arrAt 6 cfg1.N := by
  unfold leave1
  rw [Function.update_self]

/-- The core's unscoped buffers are the buffers behind the second pipeline's arrays and the rest. -/
theorem ub_split1 (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) :=
  Pipeline.unscopedBufs_split₀ (cfgs := cfgs) (p := (1 : Fin 2)) winFacts₀1.arr_unscoped c V

/-- The five buffers behind the seven windows' arrays, one by one. -/
theorem arrBufs1_list (c : Dev nD) (V : (b : Ref sig .tc) → Buf (Elt F) ((c : Thread nD τ).loc b)) :
    (Pipeline.arrBufs spec1 c V : sProp 𝕄)
      = iprop((((c : Thread nD τ).loc main_v0_0) ↦{fullShare} V main_v0_0) ∗ (((c : Thread nD τ).loc main_v0_1) ↦{fullShare} V main_v0_1)
          ∗ (((c : Thread nD τ).loc main_arg1) ↦{fullShare} V main_arg1) ∗ (((c : Thread nD τ).loc main_v1_0) ↦{fullShare} V main_v1_0)
          ∗ (((c : Thread nD τ).loc main_v1_1) ↦{fullShare} V main_v1_1)) := by
  unfold Pipeline.arrBufs
  exact bigSep_eq_bigSepL_of_eq [main_v0_0, main_v0_1, main_arg1, main_v1_0, main_v1_1] (by decide) (by decide) _

/-- The seven windows' arrays, one by one, each at its share. -/
theorem arrays1_list (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_1) ↦{fullShare.left} G 1)
          ∗ (((c : Thread nD τ).loc main_v0_0) ↦{fullShare.right} G 2) ∗ (((c : Thread nD τ).loc main_v0_1) ↦{fullShare.right} G 3)
          ∗ (((c : Thread nD τ).loc main_arg1) ↦{fullShare} G 4) ∗ (((c : Thread nD τ).loc main_v1_0) ↦{fullShare} G 5)
          ∗ (((c : Thread nD τ).loc main_v1_1) ↦{fullShare} G 6)) := by
  unfold Dat.arrays
  refine (bigSep_congr (Ψ := fun w : Fin cfg1.W => (((c : Thread nD τ).loc (Pipeline.arrRef spec1 w)) ↦{(dat1 V c).share w} G w : sProp 𝕄))
    fun w _ => by rw [(arr_whole1 w).set_eq_univ]).trans ?_
  refine (bigSep_W1 _).trans ?_
  rfl

/-- ENTRY: the unscoped buffers at a valuation give the second pipeline's arrays at their entry contents — each plane's
    full share dealt as a left half to its direct window and a right half to its swapped window — and the rest. -/
theorem split1 (c : Dev nD) :
    (StableHlo.held (c : Thread nD τ) (Pipeline.ucRefs τ sig) (Wv c) : sProp 𝕄)
      ⊢ iprop((dat1 (Vof Wv) c).arrays ((dat1 (Vof Wv) c).arrAt · 0) ∗ Pipeline.unscopedRest spec1 c (Vof Wv c)) := by
  have e0 : (dat1 (Vof Wv) c).arrAt 0 0 = Vof Wv c main_v0_0 := A_eq1 (Vof Wv) c 0
  have e1 : (dat1 (Vof Wv) c).arrAt 1 0 = Vof Wv c main_v0_1 := A_eq1 (Vof Wv) c 1
  have e2 : (dat1 (Vof Wv) c).arrAt 2 0 = Vof Wv c main_v0_0 := A_eq1 (Vof Wv) c 2
  have e3 : (dat1 (Vof Wv) c).arrAt 3 0 = Vof Wv c main_v0_1 := A_eq1 (Vof Wv) c 3
  have e4 : (dat1 (Vof Wv) c).arrAt 4 0 = Vof Wv c main_arg1 := A_eq1 (Vof Wv) c 4
  have e5 : (dat1 (Vof Wv) c).arrAt 5 0 = Vof Wv c main_v1_0 := A_eq1 (Vof Wv) c 5
  have e6 : (dat1 (Vof Wv) c).arrAt 6 0 = Vof Wv c main_v1_1 := A_eq1 (Vof Wv) c 6
  rw [← Pipeline.unscopedBufs_held (Ix := Unit) (Name := ℕ) (U := UR sig nD τ) (Lvl := ℕ) c (Wv c), ub_split1, arrBufs1_list, arrays1_list]
  dsimp only
  rw [e0, e1, e2, e3, e4, e5, e6]
  iintro ⟨⟨H00, H01, Hf, H10, H11⟩, Hrest⟩
  have hsA : (((c : Thread nD τ).loc main_v0_0) ↦{fullShare} Vof Wv c main_v0_0 : sProp 𝕄)
      ⊢ iprop((((c : Thread nD τ).loc main_v0_0) ↦{fullShare.left} Vof Wv c main_v0_0) ∗ (((c : Thread nD τ).loc main_v0_0) ↦{fullShare.right} Vof Wv c main_v0_0)) :=
    (pointsTo_share (PosShare.mem_left_op_right fullShare)).1
  have hsB : (((c : Thread nD τ).loc main_v0_1) ↦{fullShare} Vof Wv c main_v0_1 : sProp 𝕄)
      ⊢ iprop((((c : Thread nD τ).loc main_v0_1) ↦{fullShare.left} Vof Wv c main_v0_1) ∗ (((c : Thread nD τ).loc main_v0_1) ↦{fullShare.right} Vof Wv c main_v0_1)) :=
    (pointsTo_share (PosShare.mem_left_op_right fullShare)).1
  ihave HA := hsA $$ H00
  icases HA with ⟨HAl, HAr⟩
  ihave HB := hsB $$ H01
  icases HB with ⟨HBl, HBr⟩
  isplitr [Hrest]
  · isplitl [HAl]; · iexact HAl
    isplitl [HBl]; · iexact HBl
    isplitl [HAr]; · iexact HAr
    isplitl [HBr]; · iexact HBr
    isplitl [Hf]; · iexact Hf
    isplitl [H10]; · iexact H10
    iexact H11
  iexact Hrest

/-- EXIT: the arrays at their final contents — an input array still at its entry contents, so the two halves of a plane
    join — and the rest make the unscoped buffers at the valuation updated at the two output arrays. -/
theorem join1 (c : Dev nD) :
    iprop((dat1 (Vof Wv) c).arrays ((dat1 (Vof Wv) c).arrAt · cfg1.N) ∗ Pipeline.unscopedRest spec1 c (Vof Wv c))
      ⊢ (StableHlo.held (c : Thread nD τ) (Pipeline.ucRefs τ sig) (leave1 Wv c) : sProp 𝕄) := by
  have e0 : (dat1 (Vof Wv) c).arrAt 0 cfg1.N = Vof Wv c main_v0_0 := ((dat1 (Vof Wv) c).arrAt_in 0 rfl _).trans (A_eq1 (Vof Wv) c 0)
  have e1 : (dat1 (Vof Wv) c).arrAt 1 cfg1.N = Vof Wv c main_v0_1 := ((dat1 (Vof Wv) c).arrAt_in 1 rfl _).trans (A_eq1 (Vof Wv) c 1)
  have e2 : (dat1 (Vof Wv) c).arrAt 2 cfg1.N = Vof Wv c main_v0_0 := ((dat1 (Vof Wv) c).arrAt_in 2 rfl _).trans (A_eq1 (Vof Wv) c 2)
  have e3 : (dat1 (Vof Wv) c).arrAt 3 cfg1.N = Vof Wv c main_v0_1 := ((dat1 (Vof Wv) c).arrAt_in 3 rfl _).trans (A_eq1 (Vof Wv) c 3)
  have e4 : (dat1 (Vof Wv) c).arrAt 4 cfg1.N = Vof Wv c main_arg1 := ((dat1 (Vof Wv) c).arrAt_in 4 rfl _).trans (A_eq1 (Vof Wv) c 4)
  rw [← Pipeline.unscopedBufs_held (Ix := Unit) (Name := ℕ) (U := UR sig nD τ) (Lvl := ℕ) c (leave1 Wv c), ub_split1, arrBufs1_list, arrays1_list,
    unscopedRest1_eq, unscopedRest1_eq]
  try dsimp only
  rw [e0, e1, e2, e3, e4, leave1_of Wv c main_v0_0 (by decide) (by decide), leave1_of Wv c main_v0_1 (by decide) (by decide),
    leave1_of Wv c main_arg1 (by decide) (by decide), leave1_of Wv c main_arg0 (by decide) (by decide), leave1_of Wv c main_arg2 (by decide) (by decide),
    leave1_of Wv c main_arg3 (by decide) (by decide), leave1_of Wv c main_v2 (by decide) (by decide), leave1_of Wv c main_v3 (by decide) (by decide),
    leave1_of Wv c main_v4 (by decide) (by decide), leave1_A, leave1_B]
  iintro ⟨⟨HAl, HBl, HAr, HBr, Hf, H10, H11⟩, Hrest⟩
  isplitr [Hrest]
  · isplitl [HAl HAr]
    · iapply (pointsTo_share (PosShare.mem_left_op_right fullShare)).2
      isplitl [HAl] <;> iassumption
    isplitl [HBl HBr]
    · iapply (pointsTo_share (PosShare.mem_left_op_right fullShare)).2
      isplitl [HBl] <;> iassumption
    isplitl [Hf]; · iexact Hf
    isplitl [H10]; · iexact H10
    iexact H11
  iexact Hrest

end Cert.KernelIdeal.Frame

end
-- ==== Proof.IdealRun.lean ====
/-
  The whole program's run: two kernel regions, then three host operations that lay the two result planes side by side
  along a new last axis. The buffer contents at each boundary are a fold from the launch memory: the first region's two
  output arrays at what its write-backs leave, then the second region's, then the host operations' results. Every
  weakly fair execution terminates, and every unscoped buffer ends at the last valuation of that fold; in particular
  the four argument arrays end as launched.
-/
import proofs.«141700_j13821204759244_2_alg».proof.Proof.IdealRegion0
import proofs.«141700_j13821204759244_2_alg».proof.Proof.IdealShare1
import proofs.«141700_j13821204759244_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: what the first region is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- When the first region is left: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- When the second region is left: its two output arrays at what the pipeline leaves, every other buffer as entered. -/
abbrev W2 (c : Dev nD) : Valuation τ sig (Elt F) := leave1 (W1 m ρ) c
/-- After the three host operations. -/
abbrev W3 : Dev nD → Valuation τ sig (Elt F) := fun c => StableHlo.after hostOps2 (W2 m ρ c)

/-! ### The arguments end as launched -/

theorem W3_of (c : Dev nD) (r : Ref sig .tc) (h : r ∉ hostOps2_W) : W3 m ρ c r = W2 m ρ c r :=
  StableHlo.after_of_writes_sub hostOps2 _ hostOps2_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := leave1_of (W1 m ρ) c main_arg0 (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := leave1_of (W1 m ρ) c main_arg1 (by decide) (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of m ρ c main_arg2 (by decide)
    _ = W1 m ρ c (Proc.devRef .tc main_arg2) := leave1_of (W1 m ρ) c main_arg2 (by decide) (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of m ρ c main_arg3 (by decide)
    _ = W1 m ρ c (Proc.devRef .tc main_arg3) := leave1_of (W1 m ρ) c main_arg3 (by decide) (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`; each plane's
    array dealt to its two windows as two half shares at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit : (StableHlo.held (c : Thread nD τ) (Pipeline.ucRefs τ sig) (W1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V1 m ρ c)) := split1 (W1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V1 m ρ c))
        ⊢ (StableHlo.held (c : Thread nD τ) (Pipeline.ucRefs τ sig) (W2 m ρ c) : sProp 𝕄) := join1 (W1 m ρ) c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: every weakly fair execution of @main terminates, and every unscoped buffer ends at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.KernelIdeal.Frame

end
-- ==== Proof.Payloads.lean ====
/-
  The values the two kernel bodies store, read at an index.

  The first body rectifies a [1, 64, 512, 128] block of features and contracts its last axis with one column of
  the [128, 2] weight matrix, adding that column's bias: its two stored planes are, at (0, r, q),
      Σ_k max(x[0, r, q, k], 0) · W[k, o] + bias[o]      for o = 0 and o = 1.
  The second body takes a [1, 256, 256] tile u of one plane and the mirrored tile v, and stores, at (0, r, q),
      flag[0, r, q] ≠ 0 ? ½ · (u[0, r, q] + v[0, q, r]) : 0.
  Every step is a layout operation read at an index written by its coordinates, or an elementwise operation
  of the extended reals.
-/
import proofs.«141700_j13821204759244_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.PairProj.Pay

open Cert.KernelIdeal Cert.KernelIdeal.Gen Idealize.ShloMosaic Idealize.ShloMosaic.ValueIdx

/-! ## Layout steps of the projection body -/

/-- The source index over (r, q) with k on the contracted axis is (r, q, k). -/
theorem lift_ix2 (h : S64x512x128.Reduces [2] S64x512) (r : Fin 64) (q : Fin 512) (k : Fin 128) :
    h.lift (ix2 r q) k = ix3 r q k :=
  funext fun c => Fin.ext (by match c with | ⟨0, _⟩ => rfl | ⟨1, _⟩ => rfl | ⟨2, _⟩ => rfl)

/-- Column `c` of the weights, flattened, given two leading unit axes and broadcast over the block, reads
    W[k, c] at (r, q, k). -/
theorem col_apply {α : Type} (o : Nat) (x : S128x2.Idx → α) (hs : S128x2.Slices ![0, o] S128x1)
    (hc : S128x1.ShapeCasts S128) (hc' : S128.ShapeCasts S1x1x128) (hb : S1x1x128.Broadcasts S64x512x128)
    (r : Fin 64) (q : Fin 512) (k : Fin 128) (c : Fin 2) (hco : c.val = o) :
    broadcastTo S64x512x128 (shapeCast S1x1x128 (shapeCast S128 (extractStridedSlice S128x1 ![0, o] x hs) hc) hc') hb (ix3 r q k)
      = x (ix2 k c) := by
  refine (broadcastTo_apply _ hb (ix3 r q k) (ix3 (0 : Fin 1) (0 : Fin 1) k) fun a => ?_).trans ?_
  · match a with
    | ⟨0, _⟩ => rfl
    | ⟨1, _⟩ => rfl
    | ⟨2, _⟩ => rfl
  refine (shapeCast_apply _ hc' (ix3 (0 : Fin 1) (0 : Fin 1) k) (ix1 k) ?_).trans ?_
  · rw [Shape.rowMajor_val_one, Shape.rowMajor_val_three]
    show k.val = (0 * 1 + 0) * 128 + k.val
    omega
  refine (shapeCast_apply _ hc (ix1 k) (ix2 k (0 : Fin 1)) ?_).trans ?_
  · rw [Shape.rowMajor_val_two, Shape.rowMajor_val_one]
    show k.val * 1 + 0 = k.val
    omega
  exact slice2_axis1_apply o x hs k (0 : Fin 1) c (by show c.val = o + 0; omega)

/-- Entry `c` of the bias, cut out as a one-element vector and extracted, is bias[c]. -/
theorem bias_apply {α : Type} (o : Nat) (x : S2.Idx → α) (hs : S2.Slices ![o] S1)
    (hp : ∀ a, (![0] : Fin 1 → Nat) a < S1.size a) (c : Fin 2) (hco : c.val = o) :
    extractAt ![0] (extractStridedSlice S1 ![o] x hs) hp = x (ix1 c) := by
  unfold extractAt
  exact extractStridedSlice_apply _ x hs _ (ix1 c) fun a => by
    match a with
    | ⟨0, _⟩ => show c.val = o + 0; omega

/-- The rectified block at (r, q, k). -/
theorem relu_apply (x0 : Vec Ideal S1x64x512x128 .f32) (r : Fin 64) (q : Fin 512) (k : Fin 128) :
    k0_pay1 (F := Ideal) x0 (ix3 r q k) = max (x0 (ix4 (0 : Fin 1) r q k)) (Ideal.ofBits .f32 0x00000000#32) := by
  unfold k0_pay1
  exact congrArg (fun t => max t (Ideal.ofBits .f32 0x00000000#32)) (shapeCast_1abc_abc_apply x0 _ r q k)

/-! ## The projection body's two planes -/

/-- The first stored plane at (0, r, q): the projection onto output channel 0. -/
theorem planeA_apply (x0 : Vec Ideal S1x64x512x128 .f32) (x1 : Vec Ideal S128x2 .f32) (x2 : Vec Ideal S2 .f32) (r : Fin 64) (q : Fin 512) :
    k0_pay2 (F := Ideal) x0 x1 x2 (ix3 (0 : Fin 1) r q)
      = (∑ k : Fin 128, max (x0 (ix4 (0 : Fin 1) r q k)) (Ideal.ofBits .f32 0x00000000#32) * x1 (ix2 k (0 : Fin 2))) + x2 (ix1 (0 : Fin 2)) := by
  unfold k0_pay2
  refine (shapeCast_ab_1ab_apply _ _ (0 : Fin 1) r q).trans ?_
  refine (addf_apply _ _ _).trans ?_
  refine congrArg₂ (· + ·) ?_ (bias_apply 0 x2 _ _ (0 : Fin 2) rfl)
  refine (Ideal.multiReduction_add_single _ 0x00000000#32 _ (.inl rfl) rfl (ix2 r q)).trans ?_
  refine Finset.sum_congr rfl fun k _ => ?_
  refine (congrArg _ (lift_ix2 _ r q k)).trans ?_
  refine (mulf_apply _ _ _).trans ?_
  exact congrArg₂ (· * ·) (relu_apply x0 r q k) (col_apply 0 x1 _ _ _ _ r q k (0 : Fin 2) rfl)

/-- The second stored plane at (0, r, q): the projection onto output channel 1. -/
theorem planeB_apply (x0 : Vec Ideal S1x64x512x128 .f32) (x1 : Vec Ideal S128x2 .f32) (x2 : Vec Ideal S2 .f32) (r : Fin 64) (q : Fin 512) :
    k0_pay3 (F := Ideal) x0 x1 x2 (ix3 (0 : Fin 1) r q)
      = (∑ k : Fin 128, max (x0 (ix4 (0 : Fin 1) r q k)) (Ideal.ofBits .f32 0x00000000#32) * x1 (ix2 k (1 : Fin 2))) + x2 (ix1 (1 : Fin 2)) := by
  unfold k0_pay3
  refine (shapeCast_ab_1ab_apply _ _ (0 : Fin 1) r q).trans ?_
  refine (addf_apply _ _ _).trans ?_
  refine congrArg₂ (· + ·) ?_ (bias_apply 1 x2 _ _ (1 : Fin 2) rfl)
  refine (Ideal.multiReduction_add_single _ 0x00000000#32 _ (.inl rfl) rfl (ix2 r q)).trans ?_
  refine Finset.sum_congr rfl fun k _ => ?_
  refine (congrArg _ (lift_ix2 _ r q k)).trans ?_
  refine (mulf_apply _ _ _).trans ?_
  exact congrArg₂ (· * ·) (relu_apply x0 r q k) (col_apply 1 x1 _ _ _ _ r q k (1 : Fin 2) rfl)

/-! ## The symmetrizing body's two tiles -/

/-- The flag test at (r, q). -/
theorem flag_apply (x16 : Vec Ideal S1x256x256 .i32) (r q : Fin 256) :
    k1_pay1 (F := Ideal) x16 (ix2 r q) = IntOp.cmpi .ne (x16 (ix3 (0 : Fin 1) r q)) 0#32 := by
  unfold k1_pay1
  exact congrArg (fun t => IntOp.cmpi .ne t 0#32) (shapeCast_1ab_ab_apply x16 _ r q)

/-- The first stored tile at (0, r, q): where the flag is nonzero, half the sum of the tile at (r, q) and the
    mirrored tile at (q, r); zero elsewhere. -/
theorem tileA_apply (x0 x4 : Vec Ideal S1x256x256 .f32) (x16 : Vec Ideal S1x256x256 .i32) (r q : Fin 256) :
    k1_pay2 (F := Ideal) x0 x4 x16 (ix3 (0 : Fin 1) r q)
      = Scalar.select (IntOp.cmpi .ne (x16 (ix3 (0 : Fin 1) r q)) 0#32)
          (Ideal.ofBits .f32 0x3F000000#32 * (x0 (ix3 (0 : Fin 1) r q) + x4 (ix3 (0 : Fin 1) q r)))
          (Ideal.ofBits .f32 0x00000000#32) := by
  unfold k1_pay2
  refine (shapeCast_ab_1ab_apply _ _ (0 : Fin 1) r q).trans ?_
  refine (select_apply _ _ _ _).trans ?_
  refine congrArg₂ (fun c v => Scalar.select c v (Ideal.ofBits .f32 0x00000000#32)) (flag_apply x16 r q) ?_
  refine (mulf_apply _ _ _).trans ?_
  refine congrArg (fun t => Ideal.ofBits .f32 0x3F000000#32 * t) ?_
  refine (addf_apply _ _ _).trans ?_
  exact congrArg₂ (· + ·) (shapeCast_1ab_ab_apply x0 _ r q)
    ((transpose_ix2_apply _ _ r q).trans (shapeCast_1ab_ab_apply x4 _ q r))

/-- The second stored tile at (0, r, q), likewise. -/
theorem tileB_apply (x2 x7 : Vec Ideal S1x256x256 .f32) (x16 : Vec Ideal S1x256x256 .i32) (r q : Fin 256) :
    k1_pay3 (F := Ideal) x2 x7 x16 (ix3 (0 : Fin 1) r q)
      = Scalar.select (IntOp.cmpi .ne (x16 (ix3 (0 : Fin 1) r q)) 0#32)
          (Ideal.ofBits .f32 0x3F000000#32 * (x2 (ix3 (0 : Fin 1) r q) + x7 (ix3 (0 : Fin 1) q r)))
          (Ideal.ofBits .f32 0x00000000#32) := by
  unfold k1_pay3
  refine (shapeCast_ab_1ab_apply _ _ (0 : Fin 1) r q).trans ?_
  refine (select_apply _ _ _ _).trans ?_
  refine congrArg₂ (fun c v => Scalar.select c v (Ideal.ofBits .f32 0x00000000#32)) (flag_apply x16 r q) ?_
  refine (mulf_apply _ _ _).trans ?_
  refine congrArg (fun t => Ideal.ofBits .f32 0x3F000000#32 * t) ?_
  refine (addf_apply _ _ _).trans ?_
  exact congrArg₂ (· + ·) (shapeCast_1ab_ab_apply x2 _ r q)
    ((transpose_ix2_apply _ _ r q).trans (shapeCast_1ab_ab_apply x7 _ q r))

end Cert.PairProj.Pay

end
-- ==== Proof.Spec.lean ====
/-
  The function both programs compute, on extended reals, index by index.

  For a feature array `x` of shape [4, 512, 512, 128], a flag array of shape [4, 512, 512], a weight matrix `W` of
  shape [128, 2] and a bias of shape [2]:

    proj o b l m   =  Σ_k max(x[b, l, m, k], 0) · W[k, o]  +  bias[o]
    out[b, l, m, o] =  if flag[b, l, m] ≠ 0 then ½ · (proj o b l m + proj o b m l) else 0

  that is: rectify, project the 128 channels onto 2, average the projection at (l, m) with the one at (m, l), and
  keep the entries the flag selects.
-/
import Idealize.ShloMosaic.PureOps.Ideal
import Idealize.ShloMosaic.Lib.ValueIdx

noncomputable section

namespace Cert.PairProj

open Idealize.ShloMosaic Idealize.ShloMosaic.ValueIdx

/-- The shapes of the four arguments and of the result. -/
abbrev SX : Shape := ⟨4, ![4, 512, 512, 128]⟩
abbrev SF : Shape := ⟨3, ![4, 512, 512]⟩
abbrev SW : Shape := ⟨2, ![128, 2]⟩
abbrev SB : Shape := ⟨1, ![2]⟩
abbrev SO : Shape := ⟨4, ![4, 512, 512, 2]⟩

/-- The rectified features at (b, l, m) projected onto output channel `o`, plus the bias. -/
def proj (x : SX.Idx → EReal) (W : SW.Idx → EReal) (bias : SB.Idx → EReal) (o : Fin 2) (b : Fin 4) (l m : Fin 512) : EReal :=
  (∑ k : Fin 128, max (x (ix4 b l m k)) (Ideal.ofBits .f32 0x00000000#32) * W (ix2 k o)) + bias (ix1 o)

/-- One entry of the result: the mean of the projection at (l, m) and at (m, l) where the flag is nonzero, zero elsewhere. -/
def entry (x : SX.Idx → EReal) (flag : SF.Idx → BitVec 32) (W : SW.Idx → EReal) (bias : SB.Idx → EReal)
    (b : Fin 4) (l m : Fin 512) (o : Fin 2) : EReal :=
  Scalar.select (IntOp.cmpi .ne (flag (ix3 b l m)) 0#32)
    (Ideal.ofBits .f32 0x3F000000#32 * (proj x W bias o b l m + proj x W bias o b m l))
    (Ideal.ofBits .f32 0x00000000#32)

/-- The whole result array. -/
def result (x : SX.Idx → EReal) (flag : SF.Idx → BitVec 32) (W : SW.Idx → EReal) (bias : SB.Idx → EReal) : SO.Idx → EReal :=
  fun i => entry x flag W bias (i 0) (i 1) (i 2) (i 3)

end Cert.PairProj

end
-- ==== Proof.IdealPlanes.lean ====
/-
  The two planes the first kernel region leaves, each as one function of the arrays the region is entered with.

  At grid point (b, i) the region writes, into rows 64·i … 64·i + 63 of batch b of each output plane, the projection
  of the rectified features of the same rows onto one output channel, plus that channel's bias. The 4 × 8 points'
  blocks tile the [4, 512, 512] plane, so after the region each plane holds, at (b, l, m),
      Σ_k max(x[b, l, m, k], 0) · W[k, o] + bias[o]      (o = 0 for the first plane, o = 1 for the second).
-/
import proofs.«141700_j13821204759244_2_alg».proof.Proof.IdealRegion0
import proofs.«141700_j13821204759244_2_alg».proof.Proof.Payloads
import proofs.«141700_j13821204759244_2_alg».proof.Proof.Spec
import Idealize.ShloMosaic.Lib.Pipeline.Value

noncomputable section

namespace Cert.KernelIdeal.Frame

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The plane of output channel `o`: at (b, l, m) the projection of the rectified features onto `o`, plus the bias. -/
def planeFn (x : S4x512x512x128.Idx → EReal) (W : S128x2.Idx → EReal) (bs : S2.Idx → EReal) (o : Fin 2) : S4x512x512.Idx → EReal :=
  fun i => Cert.PairProj.proj x W bs o (i 0) (i 1) (i 2)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The payloads at any index of their block -/

/-- The first plane's payload at an index of its block. -/
theorem planeA_at (X : Vec Ideal S1x64x512x128 .f32) (W : Vec Ideal S128x2 .f32) (B : Vec Ideal S2 .f32) (j : S1x64x512.Idx) :
    k0_pay2 (F := Ideal) X W B j
      = (∑ k : Fin 128, max (X (ix4 (0 : Fin 1) (j 1) (j 2) k)) (Ideal.ofBits .f32 0x00000000#32) * W (ix2 k (0 : Fin 2))) + B (ix1 (0 : Fin 2)) := by
  obtain ⟨u, r, q, rfl⟩ : ∃ (u : Fin 1) (r : Fin 64) (q : Fin 512), j = ix3 u r q := ⟨j 0, j 1, j 2, eq_ix3 j⟩
  obtain rfl : u = 0 := Subsingleton.elim _ _
  exact Cert.PairProj.Pay.planeA_apply X W B r q

/-- The second plane's payload at an index of its block. -/
theorem planeB_at (X : Vec Ideal S1x64x512x128 .f32) (W : Vec Ideal S128x2 .f32) (B : Vec Ideal S2 .f32) (j : S1x64x512.Idx) :
    k0_pay3 (F := Ideal) X W B j
      = (∑ k : Fin 128, max (X (ix4 (0 : Fin 1) (j 1) (j 2) k)) (Ideal.ofBits .f32 0x00000000#32) * W (ix2 k (1 : Fin 2))) + B (ix1 (1 : Fin 2)) := by
  obtain ⟨u, r, q, rfl⟩ : ∃ (u : Fin 1) (r : Fin 64) (q : Fin 512), j = ix3 u r q := ⟨j 0, j 1, j 2, eq_ix3 j⟩
  obtain rfl : u = 0 := Subsingleton.elim _ _
  exact Cert.PairProj.Pay.planeB_apply X W B r q

/-! ## The index maps, decided over the grid -/

/-- At every point the feature window's block sits over the output windows' block, the weight and bias windows are
    the whole arrays, and the output windows' block indices stay in their ranges. -/
theorem idx_facts0 : ∀ t : Fin cfg0.N,
    win0_0.index t (0 : Fin 4) = win0_3.index t (0 : Fin 3) ∧ win0_0.index t (1 : Fin 4) = win0_3.index t (1 : Fin 3)
    ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 3 ∧ win0_3.index t (1 : Fin 3) ≤ 7 :=
  (by decide +kernel : ∀ t : Fin grid0.N, _)

/-- Every block of the first plane is some point's. -/
theorem idx_onto0_3 : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- Every block of the second plane is some point's. -/
theorem idx_onto0_4 : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-! ## What a point writes back -/

/-- What point `t` writes back to plane 0 is block `t` of `planeFn … 0` of the arrays as the region finds them. -/
theorem flushed0_3_eq (c : Dev nD) (t : Fin cfg0.N) :
    (dat0 (F := Ideal) V c).flushed 3 t
      = ((cfg0.win 3).blk t).view.read (Elt Ideal) (planeFn (V c main_arg0) (V c main_arg2) (V c main_arg3) 0) := by
  show (cfg0.win 3).cut (grid0.coords t) ((dat0 (F := Ideal) V c).after 3 t) = _
  rw [after0_3]
  unfold planeA
  rw [View.canon_unit_zero hz3]
  simp only [View.ld_unit_zero (S := S1x64x512x128) hz4, View.ld_unit_zero (S := S128x2) hz2, View.ld_unit_zero (S := S2) hz1]
  obtain ⟨e00, e01, e02, e03, e10, e11, e20, e32, e40, e41, e42, b0, b1⟩ := idx_facts0 t
  funext j
  show k0_pay2 (F := Ideal) (iblk0 V c 0 t) (iblk0 V c 1 t) (iblk0 V c 2 t) j
    = planeFn (V c main_arg0) (V c main_arg2) (V c main_arg3) 0 (((cfg0.win 3).blk t).view.emb j)
  rw [planeA_at]
  unfold planeFn Cert.PairProj.proj
  have hj0 : (j 0).val < 1 := (j 0).isLt
  -- the feature block at (0, r, q, k) is the array at (b, 64·i + r, q, k)
  have hx : ∀ k : Fin 128, iblk0 V c 0 t (ix4 (0 : Fin 1) (j 1) (j 2) k)
      = V c main_arg0 (ix4 (((cfg0.win 3).blk t).view.emb j 0) (((cfg0.win 3).blk t).view.emb j 1)
          (((cfg0.win 3).blk t).view.emb j 2) k) := fun k => by
    unfold iblk0
    rw [View.read_apply]
    show V c main_arg0 _ = V c main_arg0 _
    congr 1
    funext a
    apply Fin.ext
    match a with
    | ⟨0, _⟩ => show win0_0.index t (0 : Fin 4) * 1 + 1 * 0 = win0_3.index t (0 : Fin 3) * 1 + 1 * (j 0).val; omega
    | ⟨1, _⟩ => show win0_0.index t (1 : Fin 4) * 64 + 1 * (j 1).val = win0_3.index t (1 : Fin 3) * 64 + 1 * (j 1).val; omega
    | ⟨2, _⟩ => show win0_0.index t (2 : Fin 4) * 512 + 1 * (j 2).val = win0_3.index t (2 : Fin 3) * 512 + 1 * (j 2).val; omega
    | ⟨3, _⟩ => show win0_0.index t (3 : Fin 4) * 128 + 1 * k.val = k.val; omega
  -- the weight and bias blocks are the whole arrays
  have hw : ∀ k : Fin 128, iblk0 V c 1 t (ix2 k (0 : Fin 2)) = V c main_arg2 (ix2 k (0 : Fin 2)) := fun k => by
    unfold iblk0
    rw [View.read_apply]
    show V c main_arg2 _ = V c main_arg2 _
    congr 1
    funext a
    apply Fin.ext
    match a with
    | ⟨0, _⟩ => show win0_1.index t (0 : Fin 2) * 128 + 1 * k.val = k.val; omega
    | ⟨1, _⟩ => show win0_1.index t (1 : Fin 2) * 2 + 1 * 0 = 0; omega
  have hb : iblk0 V c 2 t (ix1 (0 : Fin 2)) = V c main_arg3 (ix1 (0 : Fin 2)) := by
    unfold iblk0
    rw [View.read_apply]
    show V c main_arg3 _ = V c main_arg3 _
    congr 1
    funext a
    apply Fin.ext
    match a with
    | ⟨0, _⟩ => show win0_2.index t (0 : Fin 1) * 2 + 1 * 0 = 0; omega
  exact congrArg₂ (· + ·) (Finset.sum_congr rfl fun k _ => congrArg₂ (· * ·)
    (congrArg (fun x => max x (Ideal.ofBits .f32 0x00000000#32)) (hx k)) (hw k)) hb

/-- What point `t` writes back to plane 1 is block `t` of `planeFn … 1` of the arrays as the region finds them. -/
theorem flushed0_4_eq (c : Dev nD) (t : Fin cfg0.N) :
    (dat0 (F := Ideal) V c).flushed 4 t
      = ((cfg0.win 4).blk t).view.read (Elt Ideal) (planeFn (V c main_arg0) (V c main_arg2) (V c main_arg3) 1) := by
  show (cfg0.win 4).cut (grid0.coords t) ((dat0 (F := Ideal) V c).after 4 t) = _
  rw [after0_4]
  unfold planeB
  rw [View.canon_unit_zero hz3]
  simp only [View.ld_unit_zero (S := S1x64x512x128) hz4, View.ld_unit_zero (S := S128x2) hz2, View.ld_unit_zero (S := S2) hz1]
  obtain ⟨e00, e01, e02, e03, e10, e11, e20, e32, e40, e41, e42, b0, b1⟩ := idx_facts0 t
  funext j
  show k0_pay3 (F := Ideal) (iblk0 V c 0 t) (iblk0 V c 1 t) (iblk0 V c 2 t) j
    = planeFn (V c main_arg0) (V c main_arg2) (V c main_arg3) 1 (((cfg0.win 4).blk t).view.emb j)
  rw [planeB_at]
  unfold planeFn Cert.PairProj.proj
  have hj0 : (j 0).val < 1 := (j 0).isLt
  -- the feature block at (0, r, q, k) is the array at (b, 64·i + r, q, k)
  have hx : ∀ k : Fin 128, iblk0 V c 0 t (ix4 (0 : Fin 1) (j 1) (j 2) k)
      = V c main_arg0 (ix4 (((cfg0.win 4).blk t).view.emb j 0) (((cfg0.win 4).blk t).view.emb j 1)
          (((cfg0.win 4).blk t).view.emb j 2) k) := fun k => by
    unfold iblk0
    rw [View.read_apply]
    show V c main_arg0 _ = V c main_arg0 _
    congr 1
    funext a
    apply Fin.ext
    match a with
    | ⟨0, _⟩ => show win0_0.index t (0 : Fin 4) * 1 + 1 * 0 = win0_4.index t (0 : Fin 3) * 1 + 1 * (j 0).val; omega
    | ⟨1, _⟩ => show win0_0.index t (1 : Fin 4) * 64 + 1 * (j 1).val = win0_4.index t (1 : Fin 3) * 64 + 1 * (j 1).val; omega
    | ⟨2, _⟩ => show win0_0.index t (2 : Fin 4) * 512 + 1 * (j 2).val = win0_4.index t (2 : Fin 3) * 512 + 1 * (j 2).val; omega
    | ⟨3, _⟩ => show win0_0.index t (3 : Fin 4) * 128 + 1 * k.val = k.val; omega
  -- the weight and bias blocks are the whole arrays
  have hw : ∀ k : Fin 128, iblk0 V c 1 t (ix2 k (1 : Fin 2)) = V c main_arg2 (ix2 k (1 : Fin 2)) := fun k => by
    unfold iblk0
    rw [View.read_apply]
    show V c main_arg2 _ = V c main_arg2 _
    congr 1
    funext a
    apply Fin.ext
    match a with
    | ⟨0, _⟩ => show win0_1.index t (0 : Fin 2) * 128 + 1 * k.val = k.val; omega
    | ⟨1, _⟩ => show win0_1.index t (1 : Fin 2) * 2 + 1 * 1 = 1; omega
  have hb : iblk0 V c 2 t (ix1 (1 : Fin 2)) = V c main_arg3 (ix1 (1 : Fin 2)) := by
    unfold iblk0
    rw [View.read_apply]
    show V c main_arg3 _ = V c main_arg3 _
    congr 1
    funext a
    apply Fin.ext
    match a with
    | ⟨0, _⟩ => show win0_2.index t (0 : Fin 1) * 2 + 1 * 1 = 1; omega
  exact congrArg₂ (· + ·) (Finset.sum_congr rfl fun k _ => congrArg₂ (· * ·)
    (congrArg (fun x => max x (Ideal.ofBits .f32 0x00000000#32)) (hx k)) (hw k)) hb

/-! ## The blocks tile the planes -/

/-- An index of the plane is in point `t`'s block iff each coordinate is in the block's range on its axis. -/
theorem mem_blk0_3 (t : Fin cfg0.N) (i : S4x512x512.Idx) :
    i ∈ ((cfg0.win 3).blk t).view.set ↔ ∀ a : Fin 3, win0_3.index t a * S1x64x512.size a ≤ (i a).val
      ∧ (i a).val < win0_3.index t a * S1x64x512.size a + S1x64x512.size a := by
  show i ∈ ((View.whole main_v0_0).slice (win0_3.rect t)).set ↔ _
  rw [View.set_slice_whole, Rect.mem_set_unit]
  exact Iff.rfl

/-- The points' blocks tile the plane: (b, l, m) is in the block of the point with block index (b, l / 64, 0). -/
theorem cover0_3 (i : S4x512x512.Idx) :
    ∃ t : Fin cfg0.N, (cfg0.win 3).flush t = true ∧ i ∈ ((cfg0.win 3).blk t).view.set := by
  have hi0 : (i 0).val < 4 := (i 0).isLt
  have hi1 : (i 1).val < 512 := (i 1).isLt
  have hi2 : (i 2).val < 512 := (i 2).isLt
  obtain ⟨t, ht⟩ := idx_onto0_3 ⟨(i 0).val, hi0⟩ ⟨(i 1).val / 64, by omega⟩
  have q0 : win0_3.index t (0 : Fin 3) = (i 0).val := congrFun ht 0
  have q1 : win0_3.index t (1 : Fin 3) = (i 1).val / 64 := congrFun ht 1
  have q2 : win0_3.index t (2 : Fin 3) = 0 := congrFun ht 2
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

/-- The plane after the region. -/
theorem final0_3 (c : Dev nD) :
    (dat0 (F := Ideal) V c).arrAt 3 cfg0.N = planeFn (V c main_arg0) (V c main_arg2) (V c main_arg3) 0 :=
  (dat0 (F := Ideal) V c).arrAt_eq_of_cover 3 _ (fun t _ => flushed0_3_eq V c t) cover0_3

/-- An index of the plane is in point `t`'s block iff each coordinate is in the block's range on its axis. -/
theorem mem_blk0_4 (t : Fin cfg0.N) (i : S4x512x512.Idx) :
    i ∈ ((cfg0.win 4).blk t).view.set ↔ ∀ a : Fin 3, win0_4.index t a * S1x64x512.size a ≤ (i a).val
      ∧ (i a).val < win0_4.index t a * S1x64x512.size a + S1x64x512.size a := by
  show i ∈ ((View.whole main_v0_1).slice (win0_4.rect t)).set ↔ _
  rw [View.set_slice_whole, Rect.mem_set_unit]
  exact Iff.rfl

/-- The points' blocks tile the plane: (b, l, m) is in the block of the point with block index (b, l / 64, 0). -/
theorem cover0_4 (i : S4x512x512.Idx) :
    ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 512 := (i 2).isLt
  obtain ⟨t, ht⟩ := idx_onto0_4 ⟨(i 0).val, hi0⟩ ⟨(i 1).val / 64, by omega⟩
  have q0 : win0_4.index t (0 : Fin 3) = (i 0).val := congrFun ht 0
  have q1 : win0_4.index t (1 : Fin 3) = (i 1).val / 64 := congrFun ht 1
  have q2 : win0_4.index t (2 : Fin 3) = 0 := congrFun ht 2
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 512 ≤ (i 2).val ∧ (i 2).val < win0_4.index t (2 : Fin 3) * 512 + 512; omega

/-- The plane after the region. -/
theorem final0_4 (c : Dev nD) :
    (dat0 (F := Ideal) V c).arrAt 4 cfg0.N = planeFn (V c main_arg0) (V c main_arg2) (V c main_arg3) 1 :=
  (dat0 (F := Ideal) V c).arrAt_eq_of_cover 4 _ (fun t _ => flushed0_4_eq V c t) cover0_4

end Cert.KernelIdeal.Frame

end
-- ==== Proof.IdealTiles.lean ====
/-
  The two arrays the second kernel region leaves, each as one function of the arrays the region is entered with.

  At grid point (b, i, j) the region reads the [256, 256] tile (i, j) of batch b of a plane g, the mirrored tile
  (j, i) of the same plane and the tile (i, j) of the flags, and writes into tile (i, j) of its output, at (r, q),
      flag[b, 256·i + r, 256·j + q] ≠ 0 ? ½ · (g[b, 256·i + r, 256·j + q] + g[b, 256·j + q, 256·i + r]) : 0:
  the mirrored tile read at (q, r) is the plane at the swapped index. The 4 × 2 × 2 points' tiles tile the
  [4, 512, 512] output, so after the region it holds, at (b, l, m),
      flag[b, l, m] ≠ 0 ? ½ · (g[b, l, m] + g[b, m, l]) : 0.
-/
import proofs.«141700_j13821204759244_2_alg».proof.Proof.IdealRegion1
import proofs.«141700_j13821204759244_2_alg».proof.Proof.Payloads
import Idealize.ShloMosaic.Lib.Pipeline.Value

noncomputable section

namespace Cert.KernelIdeal.Frame

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The symmetrized, masked plane: at (b, l, m) half the sum of `g` at (b, l, m) and at (b, m, l) where the flag is
    nonzero, zero elsewhere. -/
def tileFn (g : S4x512x512.Idx → EReal) (fl : S4x512x512.Idx → BitVec 32) : S4x512x512.Idx → EReal :=
  fun i => Scalar.select (IntOp.cmpi .ne (fl i) 0#32)
    (Ideal.ofBits .f32 0x3F000000#32 * (g i + g (ix3 (i 0) (i 2) (i 1)))) (Ideal.ofBits .f32 0x00000000#32)

theorem hzT : (![0, 0, 0] : Fin 3 → Nat) = fun _ => 0 := funext fun a => by fin_cases a <;> rfl

/-! ## The payloads at any index of their tile -/

/-- The first output's payload at an index of its tile. -/
theorem tileA_at (X Y : Vec Ideal S1x256x256 .f32) (Fl : Vec Ideal S1x256x256 .i32) (j : S1x256x256.Idx) :
    k1_pay2 (F := Ideal) X Y Fl j
      = Scalar.select (IntOp.cmpi .ne (Fl j) 0#32)
          (Ideal.ofBits .f32 0x3F000000#32 * (X j + Y (ix3 (0 : Fin 1) (j 2) (j 1)))) (Ideal.ofBits .f32 0x00000000#32) := by
  obtain ⟨u, r, q, rfl⟩ : ∃ (u : Fin 1) (r q : Fin 256), j = ix3 u r q := ⟨j 0, j 1, j 2, eq_ix3 j⟩
  obtain rfl : u = 0 := Subsingleton.elim _ _
  exact Cert.PairProj.Pay.tileA_apply X Y Fl r q

/-- The second output's payload at an index of its tile. -/
theorem tileB_at (X Y : Vec Ideal S1x256x256 .f32) (Fl : Vec Ideal S1x256x256 .i32) (j : S1x256x256.Idx) :
    k1_pay3 (F := Ideal) X Y Fl j
      = Scalar.select (IntOp.cmpi .ne (Fl j) 0#32)
          (Ideal.ofBits .f32 0x3F000000#32 * (X j + Y (ix3 (0 : Fin 1) (j 2) (j 1)))) (Ideal.ofBits .f32 0x00000000#32) := by
  obtain ⟨u, r, q, rfl⟩ : ∃ (u : Fin 1) (r q : Fin 256), j = ix3 u r q := ⟨j 0, j 1, j 2, eq_ix3 j⟩
  obtain rfl : u = 0 := Subsingleton.elim _ _
  exact Cert.PairProj.Pay.tileB_apply X Y Fl r q

/-! ## The index maps, decided over the grid -/

/-- At every point the direct windows and the flag window sit over the output windows' tile, the mirrored windows over
    the tile with the last two block indices swapped, and the block indices stay in their ranges. -/
theorem idx_facts1 : ∀ t : Fin cfg1.N,
    (win1_0.index t (0 : Fin 3) = win1_5.index t (0 : Fin 3) ∧ win1_0.index t (1 : Fin 3) = win1_5.index t (1 : Fin 3)
      ∧ win1_0.index t (2 : Fin 3) = win1_5.index t (2 : Fin 3))
    ∧ (win1_1.index t (0 : Fin 3) = win1_5.index t (0 : Fin 3) ∧ win1_1.index t (1 : Fin 3) = win1_5.index t (1 : Fin 3)
      ∧ win1_1.index t (2 : Fin 3) = win1_5.index t (2 : Fin 3))
    ∧ (win1_2.index t (0 : Fin 3) = win1_5.index t (0 : Fin 3) ∧ win1_2.index t (1 : Fin 3) = win1_5.index t (2 : Fin 3)
      ∧ win1_2.index t (2 : Fin 3) = win1_5.index t (1 : Fin 3))
    ∧ (win1_3.index t (0 : Fin 3) = win1_5.index t (0 : Fin 3) ∧ win1_3.index t (1 : Fin 3) = win1_5.index t (2 : Fin 3)
      ∧ win1_3.index t (2 : Fin 3) = win1_5.index t (1 : Fin 3))
    ∧ (win1_4.index t (0 : Fin 3) = win1_5.index t (0 : Fin 3) ∧ win1_4.index t (1 : Fin 3) = win1_5.index t (1 : Fin 3)
      ∧ win1_4.index t (2 : Fin 3) = win1_5.index t (2 : Fin 3))
    ∧ (win1_6.index t (0 : Fin 3) = win1_5.index t (0 : Fin 3) ∧ win1_6.index t (1 : Fin 3) = win1_5.index t (1 : Fin 3)
      ∧ win1_6.index t (2 : Fin 3) = win1_5.index t (2 : Fin 3))
    ∧ win1_5.index t (0 : Fin 3) ≤ 3 ∧ win1_5.index t (1 : Fin 3) ≤ 1 ∧ win1_5.index t (2 : Fin 3) ≤ 1 :=
  (by decide +kernel : ∀ t : Fin grid1.N, _)

/-- Every tile of the first output is some point's. -/
theorem idx_onto1_5 : ∀ (q0 : Fin 4) (q1 q2 : Fin 2), ∃ t : Fin cfg1.N, win1_5.index t = ![q0.val, q1.val, q2.val] :=
  (by decide +kernel : ∀ (q0 : Fin 4) (q1 q2 : Fin 2), ∃ t : Fin grid1.N, win1_5.index t = ![q0.val, q1.val, q2.val])

/-- Every tile of the second output is some point's. -/
theorem idx_onto1_6 : ∀ (q0 : Fin 4) (q1 q2 : Fin 2), ∃ t : Fin cfg1.N, win1_6.index t = ![q0.val, q1.val, q2.val] :=
  (by decide +kernel : ∀ (q0 : Fin 4) (q1 q2 : Fin 2), ∃ t : Fin grid1.N, win1_6.index t = ![q0.val, q1.val, q2.val])

/-! ## What a point writes back -/

/-- What point `t` writes back to the first output is tile `t` of `tileFn` of the first plane and the flags as the
    region finds them. -/
theorem flushed1_5_eq (c : Dev nD) (t : Fin cfg1.N) :
    (dat1 (F := Ideal) V c).flushed 5 t
      = ((cfg1.win 5).blk t).view.read (Elt Ideal) (tileFn (V c main_v0_0) (V c main_arg1)) := by
  show (cfg1.win 5).cut (grid1.coords t) ((dat1 (F := Ideal) V c).after 5 t) = _
  rw [after1_5]
  unfold tileA
  rw [View.canon_unit_zero hzT]
  simp only [View.ld_unit_zero (S := S1x256x256) hzT]
  obtain ⟨⟨a0, a1, a2⟩, ⟨b0, b1, b2⟩, ⟨c0, c1, c2⟩, ⟨d0, d1, d2⟩, ⟨f0, f1, f2⟩, ⟨g0, g1, g2⟩, -, -, -⟩ := idx_facts1 t
  funext j
  show k1_pay2 (F := Ideal) (iblk1 V c 0 t) (iblk1 V c 2 t) (iblk1 V c 4 t) j
    = tileFn (V c main_v0_0) (V c main_arg1) (((cfg1.win 5).blk t).view.emb j)
  rw [tileA_at]
  unfold tileFn
  have hj0 : (j 0).val < 1 := (j 0).isLt
  -- the direct tile at (0, r, q) is the plane at (b, 256·i + r, 256·j + q)
  have hx : iblk1 V c 0 t j = V c main_v0_0 (((cfg1.win 5).blk t).view.emb j) := by
    unfold iblk1
    rw [View.read_apply]
    show V c main_v0_0 _ = V c main_v0_0 _
    refine congrArg _ (funext fun a => Fin.ext ?_)
    match a with
    | ⟨0, _⟩ => show win1_0.index t (0 : Fin 3) * 1 + 1 * (j 0).val = win1_5.index t (0 : Fin 3) * 1 + 1 * (j 0).val; omega
    | ⟨1, _⟩ => show win1_0.index t (1 : Fin 3) * 256 + 1 * (j 1).val = win1_5.index t (1 : Fin 3) * 256 + 1 * (j 1).val; omega
    | ⟨2, _⟩ => show win1_0.index t (2 : Fin 3) * 256 + 1 * (j 2).val = win1_5.index t (2 : Fin 3) * 256 + 1 * (j 2).val; omega
  -- the mirrored tile at (0, q, r) is the plane at (b, 256·j + q, 256·i + r): the swapped index
  have hy : iblk1 V c 2 t (ix3 (0 : Fin 1) (j 2) (j 1))
      = V c main_v0_0 (ix3 (((cfg1.win 5).blk t).view.emb j 0) (((cfg1.win 5).blk t).view.emb j 2)
          (((cfg1.win 5).blk t).view.emb j 1)) := by
    unfold iblk1
    rw [View.read_apply]
    show V c main_v0_0 _ = V c main_v0_0 _
    refine congrArg _ (funext fun a => Fin.ext ?_)
    match a with
    | ⟨0, _⟩ => show win1_2.index t (0 : Fin 3) * 1 + 1 * 0 = win1_5.index t (0 : Fin 3) * 1 + 1 * (j 0).val; omega
    | ⟨1, _⟩ => show win1_2.index t (1 : Fin 3) * 256 + 1 * (j 2).val = win1_5.index t (2 : Fin 3) * 256 + 1 * (j 2).val; omega
    | ⟨2, _⟩ => show win1_2.index t (2 : Fin 3) * 256 + 1 * (j 1).val = win1_5.index t (1 : Fin 3) * 256 + 1 * (j 1).val; omega
  -- the flag tile likewise
  have hf : iblk1 V c 4 t j = V c main_arg1 (((cfg1.win 5).blk t).view.emb j) := by
    unfold iblk1
    rw [View.read_apply]
    show V c main_arg1 _ = V c main_arg1 _
    refine congrArg _ (funext fun a => Fin.ext ?_)
    match a with
    | ⟨0, _⟩ => show win1_4.index t (0 : Fin 3) * 1 + 1 * (j 0).val = win1_5.index t (0 : Fin 3) * 1 + 1 * (j 0).val; omega
    | ⟨1, _⟩ => show win1_4.index t (1 : Fin 3) * 256 + 1 * (j 1).val = win1_5.index t (1 : Fin 3) * 256 + 1 * (j 1).val; omega
    | ⟨2, _⟩ => show win1_4.index t (2 : Fin 3) * 256 + 1 * (j 2).val = win1_5.index t (2 : Fin 3) * 256 + 1 * (j 2).val; omega
  exact congrArg₂ (fun cnd v => Scalar.select (IntOp.cmpi .ne cnd 0#32) (Ideal.ofBits .f32 0x3F000000#32 * v) (Ideal.ofBits .f32 0x00000000#32))
    hf (congrArg₂ (· + ·) hx hy)

/-- What point `t` writes back to the second output is tile `t` of `tileFn` of the second plane and the flags as the
    region finds them. -/
theorem flushed1_6_eq (c : Dev nD) (t : Fin cfg1.N) :
    (dat1 (F := Ideal) V c).flushed 6 t
      = ((cfg1.win 6).blk t).view.read (Elt Ideal) (tileFn (V c main_v0_1) (V c main_arg1)) := by
  show (cfg1.win 6).cut (grid1.coords t) ((dat1 (F := Ideal) V c).after 6 t) = _
  rw [after1_6]
  unfold tileB
  rw [View.canon_unit_zero hzT]
  simp only [View.ld_unit_zero (S := S1x256x256) hzT]
  obtain ⟨⟨a0, a1, a2⟩, ⟨b0, b1, b2⟩, ⟨c0, c1, c2⟩, ⟨d0, d1, d2⟩, ⟨f0, f1, f2⟩, ⟨g0, g1, g2⟩, -, -, -⟩ := idx_facts1 t
  funext j
  show k1_pay3 (F := Ideal) (iblk1 V c 1 t) (iblk1 V c 3 t) (iblk1 V c 4 t) j
    = tileFn (V c main_v0_1) (V c main_arg1) (((cfg1.win 6).blk t).view.emb j)
  rw [tileB_at]
  unfold tileFn
  have hj0 : (j 0).val < 1 := (j 0).isLt
  -- the direct tile at (0, r, q) is the plane at (b, 256·i + r, 256·j + q)
  have hx : iblk1 V c 1 t j = V c main_v0_1 (((cfg1.win 6).blk t).view.emb j) := by
    unfold iblk1
    rw [View.read_apply]
    show V c main_v0_1 _ = V c main_v0_1 _
    refine congrArg _ (funext fun a => Fin.ext ?_)
    match a with
    | ⟨0, _⟩ => show win1_1.index t (0 : Fin 3) * 1 + 1 * (j 0).val = win1_6.index t (0 : Fin 3) * 1 + 1 * (j 0).val; omega
    | ⟨1, _⟩ => show win1_1.index t (1 : Fin 3) * 256 + 1 * (j 1).val = win1_6.index t (1 : Fin 3) * 256 + 1 * (j 1).val; omega
    | ⟨2, _⟩ => show win1_1.index t (2 : Fin 3) * 256 + 1 * (j 2).val = win1_6.index t (2 : Fin 3) * 256 + 1 * (j 2).val; omega
  -- the mirrored tile at (0, q, r) is the plane at (b, 256·j + q, 256·i + r): the swapped index
  have hy : iblk1 V c 3 t (ix3 (0 : Fin 1) (j 2) (j 1))
      = V c main_v0_1 (ix3 (((cfg1.win 6).blk t).view.emb j 0) (((cfg1.win 6).blk t).view.emb j 2)
          (((cfg1.win 6).blk t).view.emb j 1)) := by
    unfold iblk1
    rw [View.read_apply]
    show V c main_v0_1 _ = V c main_v0_1 _
    refine congrArg _ (funext fun a => Fin.ext ?_)
    match a with
    | ⟨0, _⟩ => show win1_3.index t (0 : Fin 3) * 1 + 1 * 0 = win1_6.index t (0 : Fin 3) * 1 + 1 * (j 0).val; omega
    | ⟨1, _⟩ => show win1_3.index t (1 : Fin 3) * 256 + 1 * (j 2).val = win1_6.index t (2 : Fin 3) * 256 + 1 * (j 2).val; omega
    | ⟨2, _⟩ => show win1_3.index t (2 : Fin 3) * 256 + 1 * (j 1).val = win1_6.index t (1 : Fin 3) * 256 + 1 * (j 1).val; omega
  -- the flag tile likewise
  have hf : iblk1 V c 4 t j = V c main_arg1 (((cfg1.win 6).blk t).view.emb j) := by
    unfold iblk1
    rw [View.read_apply]
    show V c main_arg1 _ = V c main_arg1 _
    refine congrArg _ (funext fun a => Fin.ext ?_)
    match a with
    | ⟨0, _⟩ => show win1_4.index t (0 : Fin 3) * 1 + 1 * (j 0).val = win1_6.index t (0 : Fin 3) * 1 + 1 * (j 0).val; omega
    | ⟨1, _⟩ => show win1_4.index t (1 : Fin 3) * 256 + 1 * (j 1).val = win1_6.index t (1 : Fin 3) * 256 + 1 * (j 1).val; omega
    | ⟨2, _⟩ => show win1_4.index t (2 : Fin 3) * 256 + 1 * (j 2).val = win1_6.index t (2 : Fin 3) * 256 + 1 * (j 2).val; omega
  exact congrArg₂ (fun cnd v => Scalar.select (IntOp.cmpi .ne cnd 0#32) (Ideal.ofBits .f32 0x3F000000#32 * v) (Ideal.ofBits .f32 0x00000000#32))
    hf (congrArg₂ (· + ·) hx hy)

/-! ## The tiles tile the outputs -/

/-- An index of the output is in point `t`'s tile iff each coordinate is in the tile's range on its axis. -/
theorem mem_blk1_5 (t : Fin cfg1.N) (i : S4x512x512.Idx) :
    i ∈ ((cfg1.win 5).blk t).view.set ↔ ∀ a : Fin 3, win1_5.index t a * S1x256x256.size a ≤ (i a).val
      ∧ (i a).val < win1_5.index t a * S1x256x256.size a + S1x256x256.size a := by
  show i ∈ ((View.whole main_v1_0).slice (win1_5.rect t)).set ↔ _
  rw [View.set_slice_whole, Rect.mem_set_unit]
  exact Iff.rfl

/-- The points' tiles tile the output: (b, l, m) is in the tile of the point with block index (b, l / 256, m / 256). -/
theorem cover1_5 (i : S4x512x512.Idx) :
    ∃ t : Fin cfg1.N, (cfg1.win 5).flush t = true ∧ i ∈ ((cfg1.win 5).blk t).view.set := by
  have hi0 : (i 0).val < 4 := (i 0).isLt
  have hi1 : (i 1).val < 512 := (i 1).isLt
  have hi2 : (i 2).val < 512 := (i 2).isLt
  obtain ⟨t, ht⟩ := idx_onto1_5 ⟨(i 0).val, hi0⟩ ⟨(i 1).val / 256, by omega⟩ ⟨(i 2).val / 256, by omega⟩
  have q0 : win1_5.index t (0 : Fin 3) = (i 0).val := congrFun ht 0
  have q1 : win1_5.index t (1 : Fin 3) = (i 1).val / 256 := congrFun ht 1
  have q2 : win1_5.index t (2 : Fin 3) = (i 2).val / 256 := congrFun ht 2
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 256 ≤ (i 2).val ∧ (i 2).val < win1_5.index t (2 : Fin 3) * 256 + 256; omega

/-- The output after the region. -/
theorem final1_5 (c : Dev nD) :
    (dat1 (F := Ideal) V c).arrAt 5 cfg1.N = tileFn (V c main_v0_0) (V c main_arg1) :=
  (dat1 (F := Ideal) V c).arrAt_eq_of_cover 5 _ (fun t _ => flushed1_5_eq V c t) cover1_5

/-- An index of the output is in point `t`'s tile iff each coordinate is in the tile's range on its axis. -/
theorem mem_blk1_6 (t : Fin cfg1.N) (i : S4x512x512.Idx) :
    i ∈ ((cfg1.win 6).blk t).view.set ↔ ∀ a : Fin 3, win1_6.index t a * S1x256x256.size a ≤ (i a).val
      ∧ (i a).val < win1_6.index t a * S1x256x256.size a + S1x256x256.size a := by
  show i ∈ ((View.whole main_v1_1).slice (win1_6.rect t)).set ↔ _
  rw [View.set_slice_whole, Rect.mem_set_unit]
  exact Iff.rfl

/-- The points' tiles tile the output: (b, l, m) is in the tile of the point with block index (b, l / 256, m / 256). -/
theorem cover1_6 (i : S4x512x512.Idx) :
    ∃ t : Fin cfg1.N, (cfg1.win 6).flush t = true ∧ i ∈ ((cfg1.win 6).blk t).view.set := by
  have hi0 : (i 0).val < 4 := (i 0).isLt
  have hi1 : (i 1).val < 512 := (i 1).isLt
  have hi2 : (i 2).val < 512 := (i 2).isLt
  obtain ⟨t, ht⟩ := idx_onto1_6 ⟨(i 0).val, hi0⟩ ⟨(i 1).val / 256, by omega⟩ ⟨(i 2).val / 256, by omega⟩
  have q0 : win1_6.index t (0 : Fin 3) = (i 0).val := congrFun ht 0
  have q1 : win1_6.index t (1 : Fin 3) = (i 1).val / 256 := congrFun ht 1
  have q2 : win1_6.index t (2 : Fin 3) = (i 2).val / 256 := congrFun ht 2
  refine ⟨t, flush1_6 t, ?_⟩
  rw [mem_blk1_6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 256 ≤ (i 2).val ∧ (i 2).val < win1_6.index t (2 : Fin 3) * 256 + 256; omega

/-- The output after the region. -/
theorem final1_6 (c : Dev nD) :
    (dat1 (F := Ideal) V c).arrAt 6 cfg1.N = tileFn (V c main_v0_1) (V c main_arg1) :=
  (dat1 (F := Ideal) V c).arrAt_eq_of_cover 6 _ (fun t _ => flushed1_6_eq V c t) cover1_6

end Cert.KernelIdeal.Frame

end
-- ==== Proof.IdealTail.lean ====
/-
  Laying two planes side by side along a new last axis: each [4, 512, 512] plane is given a trailing unit axis and the
  two are concatenated along it. Read at (b, l, m, o) the result is plane `o` at (b, l, m).
-/
import proofs.«141700_j13821204759244_2_alg».proof.Proof.Gen.KernelIdeal
import Idealize.ShloMosaic.Lib.Pipeline.Value
import Idealize.ShloMosaic.Lib.ValueIdx

noncomputable section

namespace Cert.KernelIdeal.Frame

open Cert.KernelIdeal Cert.KernelIdeal.Gen
open Idealize.ShloMosaic Idealize.ShloMosaic.ValueIdx

variable {α : Type}

/-- The two planes, each with a trailing unit axis, concatenated along that axis. -/
def stack2 (p0 p1 : S4x512x512.Idx → α) : S4x512x512x2.Idx → α :=
  concatenate S4x512x512x2 3 [⟨S4x512x512x1, broadcastInDim S4x512x512x1 ![0, 1, 2] bcast_S4x512x512_S4x512x512x1_0_1_2 p0⟩,
    ⟨S4x512x512x1, broadcastInDim S4x512x512x1 ![0, 1, 2] bcast_S4x512x512_S4x512x512x1_0_1_2 p1⟩] concatenates_S4x512x512x1_S4x512x512x1_S4x512x512x2_d3

/-- A plane with a trailing unit axis, read at (b, l, m, 0), is the plane at (b, l, m). -/
theorem unit_axis_apply (p : S4x512x512.Idx → α) (b : Fin 4) (l m : Fin 512) :
    broadcastInDim S4x512x512x1 ![0, 1, 2] bcast_S4x512x512_S4x512x512x1_0_1_2 p (ix4 b l m (0 : Fin 1)) = p (ix3 b l m) :=
  broadcastInDim_apply _ bcast_S4x512x512_S4x512x512x1_0_1_2 p (ix4 b l m (0 : Fin 1)) (ix3 b l m) (fun a => match a with
    | ⟨0, _⟩ => by show b.val = if (4 : Nat) = 1 then 0 else b.val; rw [if_neg (by decide)]
    | ⟨1, _⟩ => by show l.val = if (512 : Nat) = 1 then 0 else l.val; rw [if_neg (by decide)]
    | ⟨2, _⟩ => by show m.val = if (512 : Nat) = 1 then 0 else m.val; rw [if_neg (by decide)])

theorem stack2_apply0 (p0 p1 : S4x512x512.Idx → α) (b : Fin 4) (l m : Fin 512) :
    stack2 p0 p1 (ix4 b l m (0 : Fin 2)) = p0 (ix3 b l m) := by
  unfold stack2
  refine (concatenate_pair_apply_left 3 _ _ concatenates_S4x512x512x1_S4x512x512x1_S4x512x512x2_d3 (ix4 b l m (0 : Fin 2)) rfl (ix4 b l m (0 : Fin 1))
    (fun a => match a with
      | ⟨0, _⟩ => rfl
      | ⟨1, _⟩ => rfl
      | ⟨2, _⟩ => rfl
      | ⟨3, _⟩ => rfl)).trans ?_
  exact unit_axis_apply p0 b l m

theorem stack2_apply1 (p0 p1 : S4x512x512.Idx → α) (b : Fin 4) (l m : Fin 512) :
    stack2 p0 p1 (ix4 b l m (1 : Fin 2)) = p1 (ix3 b l m) := by
  unfold stack2
  refine (concatenate_pair_apply_right 3 _ _ concatenates_S4x512x512x1_S4x512x512x1_S4x512x512x2_d3 (ix4 b l m (1 : Fin 2)) rfl rfl (ix4 b l m (0 : Fin 1))
    (fun a => match a with
      | ⟨0, _⟩ => fun _ => rfl
      | ⟨1, _⟩ => fun _ => rfl
      | ⟨2, _⟩ => fun _ => rfl
      | ⟨3, _⟩ => fun h => absurd rfl h) rfl).trans ?_
  exact unit_axis_apply p1 b l m

end Cert.KernelIdeal.Frame

end
-- ==== Proof.IdealValue.lean ====
/-
  What the idealized kernel's program leaves in its result array: the two planes of the first region (the projection
  of the rectified features), symmetrized and masked tile by tile in the second region, laid side by side by the host
  operations — index by index the function `Cert.PairProj.result` of the four argument arrays.
-/
import proofs.«141700_j13821204759244_2_alg».proof.Proof.IdealRun
import proofs.«141700_j13821204759244_2_alg».proof.Proof.IdealPlanes
import proofs.«141700_j13821204759244_2_alg».proof.Proof.IdealTiles
import proofs.«141700_j13821204759244_2_alg».proof.Proof.IdealTail
import proofs.«141700_j13821204759244_2_alg».proof.Proof.Spec
import Idealize.ShloMosaic.Lib.StableHlo.Run

noncomputable section

namespace Cert.KernelIdeal.Frame

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The host operations' result is the two output planes of the second region side by side. -/
theorem W3_result (c : Dev nD) :
    W3 m ρ c (Proc.devRef .tc main_v4) = stack2 (W2 m ρ c (Proc.devRef .tc main_v1_0)) (W2 m ρ c (Proc.devRef .tc main_v1_1)) := by
  show StableHlo.after hostOps2 (W2 m ρ c) (Proc.devRef .tc main_v4) = _
  after_results
  rfl

/-- The second region is entered with the first region's planes in its two input arrays and the flags as launched. -/
theorem entry_plane0 (c : Dev nD) : V1 m ρ c main_v0_0
    = planeFn (m ((c : Thread nD τ).loc main_arg0)) (m ((c : Thread nD τ).loc main_arg2)) (m ((c : Thread nD τ).loc main_arg3)) 0 :=
  (W1_arr m ρ c 3).trans (final0_3 (V0 m ρ) c)
theorem entry_plane1 (c : Dev nD) : V1 m ρ c main_v0_1
    = planeFn (m ((c : Thread nD τ).loc main_arg0)) (m ((c : Thread nD τ).loc main_arg2)) (m ((c : Thread nD τ).loc main_arg3)) 1 :=
  (W1_arr m ρ c 4).trans (final0_4 (V0 m ρ) c)
theorem entry_flags (c : Dev nD) : V1 m ρ c main_arg1 = m ((c : Thread nD τ).loc main_arg1) :=
  W1_of_ne m ρ c main_arg1 (by decide)

/-- THE RESULT: the program's result array is `Cert.PairProj.result` of the argument arrays. -/
theorem result_eq (c : Dev nD) :
    W3 m ρ c (Proc.devRef .tc main_v4)
      = Cert.PairProj.result (m ((c : Thread nD τ).loc main_arg0)) (m ((c : Thread nD τ).loc main_arg1)) (m ((c : Thread nD τ).loc main_arg2)) (m ((c : Thread nD τ).loc main_arg3)) := by
  have hA : W2 m ρ c (Proc.devRef .tc main_v1_0) = tileFn (planeFn (m ((c : Thread nD τ).loc main_arg0)) (m ((c : Thread nD τ).loc main_arg2)) (m ((c : Thread nD τ).loc main_arg3)) 0) (m ((c : Thread nD τ).loc main_arg1)) := by
    refine (leave1_A (W1 m ρ) c).trans ((final1_5 (V1 m ρ) c).trans ?_)
    rw [entry_plane0, entry_flags]
  have hB : W2 m ρ c (Proc.devRef .tc main_v1_1) = tileFn (planeFn (m ((c : Thread nD τ).loc main_arg0)) (m ((c : Thread nD τ).loc main_arg2)) (m ((c : Thread nD τ).loc main_arg3)) 1) (m ((c : Thread nD τ).loc main_arg1)) := by
    refine (leave1_B (W1 m ρ) c).trans ((final1_6 (V1 m ρ) c).trans ?_)
    rw [entry_plane1, entry_flags]
  rw [W3_result, hA, hB]
  funext i
  obtain ⟨b, l, k, o, rfl⟩ : ∃ (b : Fin 4) (l k : Fin 512) (o : Fin 2), i = ix4 b l k o := ⟨i 0, i 1, i 2, i 3, eq_ix4 i⟩
  match o with
  | ⟨0, _⟩ => exact (stack2_apply0 _ _ b l k).trans rfl
  | ⟨1, _⟩ => exact (stack2_apply1 _ _ b l k).trans rfl

end Cert.KernelIdeal.Frame

end
-- ==== Proof.RefSide.lean ====
/-
  The reference program computes the function of Spec.lean.

  At an index (b, l, m, o) the reference reads
      select (flag[b,l,m] ≠ 0) (Σ_k ((max(x[b,l,m,k],0) + max(x[b,m,l,k],0)) · ½) · W[k,o] + bias[o]) 0
  and the specification
      select (flag[b,l,m] ≠ 0) (½ · ((Σ_k max(x[b,l,m,k],0) · W[k,o] + bias[o]) + (Σ_k max(x[b,m,l,k],0) · W[k,o] + bias[o]))) 0.
  The two selected values agree when every entry of x, W and bias is a real number: over ℝ this is
  distributivity and ½ · (c + c) = c, and it is carried to the extended reals through the coercion, which
  respects sums, products and maxima of reals.
-/
import proofs.«141700_j13821204759244_2_alg».proof.Proof.Spec
import proofs.«141700_j13821204759244_2_alg».proof.Proof.Gen.ReferenceIdeal.Read

noncomputable section

namespace Cert.PairProj.Ref

open Idealize.ShloMosaic Idealize.ShloMosaic.ValueIdx

/-! ## The two literals -/

/-- The word `0x3F000000` denotes one half. -/
theorem ofBits_half : Ideal.ofBits .f32 0x3F000000#32 = (((1 / 2 : ℝ)) : EReal) := by
  simp [Ideal.ofBits, Ideal.ieee, -EReal.coe_mul]; norm_num

/-- The word `0x00000000` denotes the real zero. -/
theorem ofBits_zero : Ideal.ofBits .f32 0x00000000#32 = ((0 : ℝ) : EReal) := by
  simp [Ideal.ofBits, Ideal.ieee]

/-! ## The law -/

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- Over the reals: the projection of the half-sum of two rows is the half-sum of their projections. -/
theorem law_real {ι : Type*} [Fintype ι] (a a' w : ι → ℝ) (c : ℝ) :
    (∑ k, ((a k + a' k) * (1 / 2)) * w k) + c = (1 / 2) * (((∑ k, a k * w k) + c) + ((∑ k, a' k * w k) + c)) := by
  have e : ∀ k, ((a k + a' k) * (1 / 2)) * w k = (1 / 2) * (a k * w k) + (1 / 2) * (a' k * w k) := fun k => by ring
  rw [Finset.sum_congr rfl fun k _ => e k, Finset.sum_add_distrib, ← Finset.mul_sum, ← Finset.mul_sum]
  ring

/-- The same over the extended reals, for rows, weights and a bias that are all real. -/
theorem law {ι : Type*} [Fintype ι] (x x' w : ι → EReal) (c : EReal)
    (hx : ∀ k, ∃ r : ℝ, x k = (r : EReal)) (hx' : ∀ k, ∃ r : ℝ, x' k = (r : EReal))
    (hw : ∀ k, ∃ r : ℝ, w k = (r : EReal)) (hc : ∃ r : ℝ, c = (r : EReal)) :
    (∑ k, ((max (x k) (Ideal.ofBits .f32 0x00000000#32) + max (x' k) (Ideal.ofBits .f32 0x00000000#32))
        * Ideal.ofBits .f32 0x3F000000#32) * w k) + c
      = Ideal.ofBits .f32 0x3F000000#32
        * (((∑ k, max (x k) (Ideal.ofBits .f32 0x00000000#32) * w k) + c)
          + ((∑ k, max (x' k) (Ideal.ofBits .f32 0x00000000#32) * w k) + c)) := by
  choose a ha using hx
  choose a' ha' using hx'
  choose v hv using hw
  obtain ⟨r, rfl⟩ := hc
  simp only [ha, ha', hv, ofBits_half, ofBits_zero, ← coe_max, ← EReal.coe_add, ← EReal.coe_mul, ← coe_sum]
  rw [EReal.coe_eq_coe_iff]
  exact law_real (fun k => max (a k) 0) (fun k => max (a' k) 0) v r

/-! ## The reference read at an index -/

open Cert.ReferenceIdeal.Read in
/-- The reference's result is the specification's, when the features, the weights and the bias are real. -/
theorem reference_eq_result (x0 : (⟨Cert.ReferenceIdeal.S4x512x512x128, .f32⟩ : BufTy).Contents (Elt Ideal)) (x1 : (⟨Cert.ReferenceIdeal.S4x512x512, .i32⟩ : BufTy).Contents (Elt Ideal)) (x2 : (⟨Cert.ReferenceIdeal.S128x2, .f32⟩ : BufTy).Contents (Elt Ideal)) (x3 : (⟨Cert.ReferenceIdeal.S2, .f32⟩ : BufTy).Contents (Elt Ideal))
    (h0 : ∀ j, ∃ r : ℝ, x0 j = (r : EReal)) (h2 : ∀ j, ∃ r : ℝ, x2 j = (r : EReal)) (h3 : ∀ j, ∃ r : ℝ, x3 j = (r : EReal)) :
    Cert.ReferenceIdeal.Read.val_main_v12 (F := Ideal) x0 x1 x2 x3 = Cert.PairProj.result x0 x1 x2 x3 := by
  funext i
  obtain ⟨b, l, m, o, rfl⟩ : ∃ (b : Fin 4) (l m : Fin 512) (o : Fin 2), i = ix4 b l m o := ⟨i 0, i 1, i 2, i 3, eq_ix4 i⟩
  -- the composed index functions of the layout operations, in coordinates
  have e1 : idx_main_v11 (idx_main_call1_v0 (ix4 b l m o)) = ix3 b l m :=
    funext fun a => Fin.ext (by match a with | ⟨0, _⟩ => rfl | ⟨1, _⟩ => rfl | ⟨2, _⟩ => rfl)
  have e2 : idx_main_v6 (idx_main_v7 (ix4 b l m o)) = ix1 o :=
    funext fun a => Fin.ext (by match a with | ⟨0, _⟩ => rfl)
  have e3 : ∀ k : Fin 128, ridx_main_v5 (ix4 b l m o) k = ix2 k o := fun k =>
    funext fun a => Fin.ext (by match a with | ⟨0, _⟩ => rfl | ⟨1, _⟩ => rfl)
  have e4 : ∀ k : Fin 128, lidx_main_v5 (ix4 b l m o) k = ix4 b l m k := fun k =>
    funext fun a => Fin.ext (by match a with | ⟨0, _⟩ => rfl | ⟨1, _⟩ => rfl | ⟨2, _⟩ => rfl | ⟨3, _⟩ => rfl)
  have e5 : ∀ k : Fin 128, idx_main_v1 (ix4 b l m k) = ix4 b m l k := fun k =>
    funext fun a => Fin.ext (by match a with | ⟨0, _⟩ => rfl | ⟨1, _⟩ => rfl | ⟨2, _⟩ => rfl | ⟨3, _⟩ => rfl)
  -- the contraction's left operand at (b, l, m, k): the half-sum of the two rectified features
  have ev4 : ∀ k : Fin 128, val_main_v4 (F := Ideal) x0 (lidx_main_v5 (ix4 b l m o) k)
      = (max (x0 (ix4 b l m k)) (Ideal.ofBits .f32 0x00000000#32) + max (x0 (ix4 b m l k)) (Ideal.ofBits .f32 0x00000000#32))
        * Ideal.ofBits .f32 0x3F000000#32 := fun k => by
    rw [e4 k, val_main_v4_apply, val_main_v2_apply, val_main_v1_apply, e5 k]
    simp only [val_main_v3_apply, val_main_cst_apply, val_main_v0_apply, val_main_call0_v0_apply, val_main_call0_cst_apply,
      Ideal.addf_def, Ideal.mulf_def, Ideal.maximumf_def, Ideal.ofBits_def]
  rw [val_main_v12_apply, val_main_call1_v0_apply, val_main_v11_apply, val_main_v10_apply, val_main_v9_apply, val_main_c_apply,
    val_main_call1_v1_apply, val_main_cst_0_apply, val_main_v8_apply, val_main_v5_apply, val_main_v7_apply, val_main_v6_apply,
    e1, e2, Finset.sum_congr rfl fun k _ => congrArg₂ (· * ·) (ev4 k) (congrArg x2 (e3 k))]
  -- both sides select on the same condition; the selected values agree by the law
  show Scalar.select (IntOp.cmpi .ne (x1 (ix3 b l m)) 0#32) (_ + _) (Ideal.ofBits .f32 0x00000000#32) = entry x0 x1 x2 x3 b l m o
  unfold entry proj
  exact congrArg (fun t => Scalar.select (IntOp.cmpi .ne (x1 (ix3 b l m)) 0#32) t (Ideal.ofBits .f32 0x00000000#32))
    (law (fun k => x0 (ix4 b l m k)) (fun k => x0 (ix4 b m l k)) (fun k => x2 (ix2 k o)) (x3 (ix1 o))
      (fun _ => h0 _) (fun _ => h0 _) (fun _ => h2 _) (h3 _))

end Cert.PairProj.Ref

end
-- ==== Proof.Finite.lean ====
/-
  The printed precondition says that every entry of the features, of the weights and of the bias is a real
  number.

  The predicate is the conjunction of three tests "every |entry| is below +∞", one per float argument. An
  extended real whose absolute value max(x, -x) is strictly below ⊤ is neither ⊤ nor ⊥, hence a real.
-/
import proofs.«141700_j13821204759244_2_alg».proof.Pre_finite_inputs
import proofs.«141700_j13821204759244_2_alg».proof.Proof.Gen.Pre_finite_inputs
import Idealize.ShloMosaic.Lib.ReduceAll
import Idealize.ShloMosaic.Lib.ValueIdx
import Idealize.ShloMosaic.PureOps.Ideal

noncomputable section

namespace Cert.PairProj.Finite

open Idealize.ShloMosaic

/-- The scalar shape has one index. -/
instance : Subsingleton Cert.Pre_finite_inputs.S_.Idx := ⟨fun a b => funext fun d => d.elim0⟩

/-- An extended real whose absolute value compares below the word of +∞ is a real number. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot => exact absurd h (by decide)
  | coe r => exact ⟨r, rfl⟩
  | top => exact absurd h (by decide)

/-- The precondition holds only of arguments whose float entries are all real. -/
theorem finite_of_pre (a0 : FVec Ideal Cert.Pre_finite_inputs.S4x512x512x128 .f32) (a1 : IVec Cert.Pre_finite_inputs.S4x512x512 32) (a2 : FVec Ideal Cert.Pre_finite_inputs.S128x2 .f32) (a3 : FVec Ideal Cert.Pre_finite_inputs.S2 .f32)
    (h : Cert.Pre_finite_inputs.fn (F := Ideal) a0 a1 a2 a3 = fun _ => 1#1) :
    (∀ j, ∃ r : ℝ, a0 j = (r : EReal)) ∧ (∀ j, ∃ r : ℝ, a2 j = (r : EReal)) ∧ (∀ j, ∃ r : ℝ, a3 j = (r : EReal)) := by
  have h' := congrFun h ValueIdx.ix0
  dsimp only [Cert.Pre_finite_inputs.fn] at h'
  -- the conjunction of the three tests
  obtain ⟨h02, h3⟩ := IntOp.andi_eq_one.1 h'
  obtain ⟨h0, h2⟩ := IntOp.andi_eq_one.1 h02
  exact ⟨fun j => real_of_abs_lt _ (Host.reduce_andi_all _ _ _ _ _ h0 j),
    fun j => real_of_abs_lt _ (Host.reduce_andi_all _ _ _ _ _ h2 j),
    fun j => real_of_abs_lt _ (Host.reduce_andi_all _ _ _ _ _ h3 j)⟩

end Cert.PairProj.Finite

end
-- ==== Proof.lean ====
/-
  The kernel rectifies a [4, 512, 512, 128] feature array, projects its 128 channels onto 2 with a [128, 2] weight
  matrix and a bias, and — since the projection is linear and acts on the channel axis only — symmetrizes AFTER
  projecting: out[b, l, m, o] = ½ · (g[b, l, m, o] + g[b, m, l, o]) where the flag is nonzero, 0 elsewhere, with
  g = relu(x) · W + bias. The reference symmetrizes the rectified features first and projects afterwards. On finite
  inputs the two agree over the extended reals: ½ · ((Σ a·w + c) + (Σ a'·w + c)) = Σ ((a + a')·½)·w + c.

  The program is two kernel regions and three host operations. Each region's run is read from the pipeline library's
  launch theorem for a list of segments; the second region reads each of the first region's two result planes through
  two windows, which share the plane's array as two half shares. The reference's run is its generated run.
-/
import proofs.«141700_j13821204759244_2_alg».proof.Defs
import proofs.«141700_j13821204759244_2_alg».proof.Proof.Gen.Kernel
import proofs.«141700_j13821204759244_2_alg».proof.Proof.Gen.KernelIdeal
import proofs.«141700_j13821204759244_2_alg».proof.Proof.Gen.ReferenceIdeal
import proofs.«141700_j13821204759244_2_alg».proof.Proof.Gen.Pre_finite_inputs
import proofs.«141700_j13821204759244_2_alg».proof.Proof.Gen.ReferenceIdeal.Read
import proofs.«141700_j13821204759244_2_alg».proof.Proof.BitsRun
import proofs.«141700_j13821204759244_2_alg».proof.Proof.IdealValue
import proofs.«141700_j13821204759244_2_alg».proof.Proof.RefSide
import proofs.«141700_j13821204759244_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Frame.frame m ρ

/-- So does the idealized program. -/
theorem frame_ki : Cert.frame_KernelIdeal := fun m ρ _ => Cert.KernelIdeal.Frame.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with `Cert.PairProj.result` of the (agreeing, finite) argument arrays in their result. -/
theorem algebraic : Cert.algebraic_KernelIdeal_ReferenceIdeal := by
  intro m ρ m' ρ' hpre hagree
  refine ⟨fun c => Cert.PairProj.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Frame.mem_uc Cert.KernelIdeal.main_v4 (by decide))).trans (Cert.KernelIdeal.Frame.result_eq m ρ c),
       (h c _ (Cert.KernelIdeal.Frame.mem_uc Cert.KernelIdeal.main_arg0 (by decide))).trans (Cert.KernelIdeal.Frame.W3_main_arg0 m ρ c),
       (h c _ (Cert.KernelIdeal.Frame.mem_uc Cert.KernelIdeal.main_arg1 (by decide))).trans (Cert.KernelIdeal.Frame.W3_main_arg1 m ρ c),
       (h c _ (Cert.KernelIdeal.Frame.mem_uc Cert.KernelIdeal.main_arg2 (by decide))).trans (Cert.KernelIdeal.Frame.W3_main_arg2 m ρ c),
       (h c _ (Cert.KernelIdeal.Frame.mem_uc Cert.KernelIdeal.main_arg3 (by decide))).trans (Cert.KernelIdeal.Frame.W3_main_arg3 m ρ c)⟩)
      (Cert.KernelIdeal.Frame.run_main m ρ)
  · refine (θ_run Cert.ReferenceIdeal.defs _ _).mono (fun _ h c => ⟨(h c).1.trans ?_, (h c).2⟩)
      (Cert.ReferenceIdeal.Value.run (F := Ideal) m' ρ')
    obtain ⟨f0, f2, f3⟩ := Cert.PairProj.Finite.finite_of_pre _ _ _ _ (hpre c)
    rw [Cert.ReferenceIdeal.Read.val_main_v12_eq, (hagree c).1, (hagree c).2.1, (hagree c).2.2.1, (hagree c).2.2.2]
    exact Cert.PairProj.Ref.reference_eq_result _ _ _ _ f0 f2 f3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
